-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512x32 : Shape := ⟨4, ![8, 256, 512, 32]⟩
abbrev S_ : Shape := ⟨0, ![]⟩

class Facts : Prop where
  bcast_S_S8x256x512x32 : S_.BroadcastsInDim S8x256x512x32 (![] : Fin 0 → Fin S8x256x512x32.rank)
  reducesTo_S8x256x512x32_S_d0_1_2_3 : S8x256x512x32.ReducesTo [0, 1, 2, 3] S_
  h_S_ : 0 < S_.numel

variable [Facts]

def fn {F : FTy → Type} [FloatOps F] (main_arg0 : FVec F S8x256x512x32 .f32) (main_arg1 : FVec F S8x256x512x32 .f32) : IVec S_ 1 :=
  let main_v0 : FVec F S8x256x512x32 .f32 := Host.absf main_arg0
  let main_cst : FVec F S_ .f32 := constant S_ .f32 0x7F800000#32
  let main_v1 : FVec F S8x256x512x32 .f32 := broadcastInDim S8x256x512x32 ![] bcast_S_S8x256x512x32 main_cst
  let main_v2 : IVec S8x256x512x32 1 := cmpf .olt main_v0 main_v1
  let main_c : IVec S_ 1 := constantI S_ 1 1#1
  let main_v3 : IVec S_ 1 := (fun x v => Host.reduce IntOp.andi x v reducesTo_S8x256x512x32_S_d0_1_2_3 h_S_) main_v2 main_c
  let main_v4 : FVec F S8x256x512x32 .f32 := Host.absf main_arg1
  let main_cst_0 : FVec F S_ .f32 := constant S_ .f32 0x7F800000#32
  let main_v5 : FVec F S8x256x512x32 .f32 := broadcastInDim S8x256x512x32 ![] bcast_S_S8x256x512x32 main_cst_0
  let main_v6 : IVec S8x256x512x32 1 := cmpf .olt main_v4 main_v5
  let main_c_1 : IVec S_ 1 := constantI S_ 1 1#1
  let main_v7 : IVec S_ 1 := (fun x v => Host.reduce IntOp.andi x v reducesTo_S8x256x512x32_S_d0_1_2_3 h_S_) main_v6 main_c_1
  let main_v8 : IVec S_ 1 := andi main_v3 main_v7
  main_v8
-- ==== Kernel.lean ====
abbrev S8x256x512x32 : Shape := ⟨4, ![8, 256, 512, 32]⟩
abbrev S8x256x16384 : Shape := ⟨3, ![8, 256, 16384]⟩
abbrev S8x256x12x512 : Shape := ⟨4, ![8, 256, 12, 512]⟩
abbrev S1x32x16384 : Shape := ⟨3, ![1, 32, 16384]⟩
abbrev S1x32x12x512 : Shape := ⟨4, ![1, 32, 12, 512]⟩
abbrev S32x16384 : Shape := ⟨2, ![32, 16384]⟩
abbrev S32x512x32 : Shape := ⟨3, ![32, 512, 32]⟩
abbrev S32x512 : Shape := ⟨2, ![32, 512]⟩
abbrev S1x32x1x512 : Shape := ⟨4, ![1, 32, 1, 512]⟩
abbrev S8x256x512x12 : Shape := ⟨4, ![8, 256, 512, 12]⟩

abbrev nBuf : Space → Nat
  | .hbm => 6
  | .vmem => 6
  | .smem => 0
  | _ => 0

abbrev bufTy : (tb : Table) → Fin (tcTables nBuf tb) → BufTy
  | .hbm, ⟨0, _⟩ => ⟨S8x256x512x32, .f32⟩
  | .hbm, ⟨1, _⟩ => ⟨S8x256x512x32, .f32⟩
  | .hbm, ⟨2, _⟩ => ⟨S8x256x16384, .f32⟩
  | .hbm, ⟨3, _⟩ => ⟨S8x256x16384, .f32⟩
  | .hbm, ⟨4, _⟩ => ⟨S8x256x12x512, .f32⟩
  | .hbm, ⟨5, _⟩ => ⟨S8x256x512x12, .f32⟩
  | .local _ .vmem, ⟨0, _⟩ => ⟨S1x32x16384, .f32⟩
  | .local _ .vmem, ⟨1, _⟩ => ⟨S1x32x16384, .f32⟩
  | .local _ .vmem, ⟨2, _⟩ => ⟨S1x32x16384, .f32⟩
  | .local _ .vmem, ⟨3, _⟩ => ⟨S1x32x16384, .f32⟩
  | .local _ .vmem, ⟨4, _⟩ => ⟨S1x32x12x512, .f32⟩
  | .local _ .vmem, ⟨5, _⟩ => ⟨S1x32x12x512, .f32⟩
  | _, _ => ⟨S8x256x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x12x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x256x512x32_S8x256x16384 : S8x256x512x32.ShapeCasts S8x256x16384
  inb_S1x32x16384_S1x32x16384_0_0_0 : ∀ a, (![0, 0, 0] : Fin 3 → Nat) a + S1x32x16384.size a ≤ S1x32x16384.size a
  h_S1x32x16384 : 0 < S1x32x16384.numel
  shapeCasts_S1x32x16384_S32x16384 : S1x32x16384.ShapeCasts S32x16384
  iota_S32x16384_d1_w32 : S32x16384.Iotas .tc 32 [1]
  shapeCasts_S32x16384_S32x512x32 : S32x16384.ShapeCasts S32x512x32
  reduces_S32x512x32_S32x512 : S32x512x32.Reduces [2] S32x512
  inb_S1x32x12x512_S1x32x1x512_0_0_0_0 : ∀ a, (![0, 0, 0, 0] : Fin 4 → Nat) a + S1x32x1x512.size a ≤ S1x32x12x512.size a
  h_S1x32x1x512 : 0 < S1x32x1x512.numel
  shapeCasts_S1x32x1x512_S32x512 : S1x32x1x512.ShapeCasts S32x512
  shapeCasts_S32x512_S1x32x1x512 : S32x512.ShapeCasts S1x32x1x512
  rotates_S32x16384_d1 : S32x16384.Rotates 1 none
  inb_S1x32x12x512_S1x32x1x512_0_0_1_0 : ∀ a, (![0, 0, 1, 0] : Fin 4 → Nat) a + S1x32x1x512.size a ≤ S1x32x12x512.size a
  inb_S1x32x12x512_S1x32x1x512_0_0_2_0 : ∀ a, (![0, 0, 2, 0] : Fin 4 → Nat) a + S1x32x1x512.size a ≤ S1x32x12x512.size a
  inb_S1x32x12x512_S1x32x1x512_0_0_3_0 : ∀ a, (![0, 0, 3, 0] : Fin 4 → Nat) a + S1x32x1x512.size a ≤ S1x32x12x512.size a
  inb_S1x32x12x512_S1x32x1x512_0_0_4_0 : ∀ a, (![0, 0, 4, 0] : Fin 4 → Nat) a + S1x32x1x512.size a ≤ S1x32x12x512.size a
  inb_S1x32x12x512_S1x32x1x512_0_0_5_0 : ∀ a, (![0, 0, 5, 0] : Fin 4 → Nat) a + S1x32x1x512.size a ≤ S1x32x12x512.size a
  inb_S1x32x12x512_S1x32x1x512_0_0_6_0 : ∀ a, (![0, 0, 6, 0] : Fin 4 → Nat) a + S1x32x1x512.size a ≤ S1x32x12x512.size a
  inb_S1x32x12x512_S1x32x1x512_0_0_7_0 : ∀ a, (![0, 0, 7, 0] : Fin 4 → Nat) a + S1x32x1x512.size a ≤ S1x32x12x512.size a
  inb_S1x32x12x512_S1x32x1x512_0_0_8_0 : ∀ a, (![0, 0, 8, 0] : Fin 4 → Nat) a + S1x32x1x512.size a ≤ S1x32x12x512.size a
  inb_S1x32x12x512_S1x32x1x512_0_0_9_0 : ∀ a, (![0, 0, 9, 0] : Fin 4 → Nat) a + S1x32x1x512.size a ≤ S1x32x12x512.size a
  inb_S1x32x12x512_S1x32x1x512_0_0_10_0 : ∀ a, (![0, 0, 10, 0] : Fin 4 → Nat) a + S1x32x1x512.size a ≤ S1x32x12x512.size a
  inb_S1x32x12x512_S1x32x1x512_0_0_11_0 : ∀ a, (![0, 0, 11, 0] : Fin 4 → Nat) a + S1x32x1x512.size a ≤ S1x32x12x512.size a
  transposes_S8x256x12x512_S8x256x512x12_0_1_3_2 : S8x256x12x512.Transposes [0, 1, 3, 2] S8x256x512x12
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x16384.size a ≤ S8x256x16384.size a
  hwx0_0 : ∀ i : grid0.Coords, EltTy.bits .f32 = 32 ∨ (Rect.block (s := S8x256x16384) S1x32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x16384.size a ≤ S8x256x16384.size a
  hwx0_1 : ∀ i : grid0.Coords, EltTy.bits .f32 = 32 ∨ (Rect.block (s := S8x256x16384) S1x32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x12x512.size a ≤ S8x256x12x512.size a
  hwx0_2 : ∀ i : grid0.Coords, EltTy.bits .f32 = 32 ∨ (Rect.block (s := S8x256x12x512) S1x32x12x512.size (cc0_transform_2 i) (hinb0_2 i)).WholeWords (EltTy.packing .f32)

variable [Facts₀]

abbrev win0_0 : Pipeline.Window sig grid0 :=
  Pipeline.Window.ofSpec (Memref.whole main_v0) S1x32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x12x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x512x32 : Shape := ⟨4, ![8, 256, 512, 32]⟩
abbrev S_ : Shape := ⟨0, ![]⟩
abbrev S8x256x512 : Shape := ⟨3, ![8, 256, 512]⟩
abbrev S8x256x513x32 : Shape := ⟨4, ![8, 256, 513, 32]⟩
abbrev S8x256x514x32 : Shape := ⟨4, ![8, 256, 514, 32]⟩
abbrev S8x256x515x32 : Shape := ⟨4, ![8, 256, 515, 32]⟩
abbrev S8x256x516x32 : Shape := ⟨4, ![8, 256, 516, 32]⟩
abbrev S8x256x517x32 : Shape := ⟨4, ![8, 256, 517, 32]⟩
abbrev S8x256x518x32 : Shape := ⟨4, ![8, 256, 518, 32]⟩
abbrev S8x256x519x32 : Shape := ⟨4, ![8, 256, 519, 32]⟩
abbrev S8x256x520x32 : Shape := ⟨4, ![8, 256, 520, 32]⟩
abbrev S8x256x521x32 : Shape := ⟨4, ![8, 256, 521, 32]⟩
abbrev S8x256x522x32 : Shape := ⟨4, ![8, 256, 522, 32]⟩
abbrev S8x256x523x32 : Shape := ⟨4, ![8, 256, 523, 32]⟩
abbrev S8x256x512x1 : Shape := ⟨4, ![8, 256, 512, 1]⟩
abbrev S8x256x512x12 : Shape := ⟨4, ![8, 256, 512, 12]⟩

abbrev nBuf : Space → Nat
  | .hbm => 110
  | .vmem => 0
  | .smem => 0
  | _ => 0

abbrev bufTy : (tb : Table) → Fin (tcTables nBuf tb) → BufTy
  | .hbm, ⟨0, _⟩ => ⟨S8x256x512x32, .f32⟩
  | .hbm, ⟨1, _⟩ => ⟨S8x256x512x32, .f32⟩
  | .hbm, ⟨2, _⟩ => ⟨S_, .i32⟩
  | .hbm, ⟨3, _⟩ => ⟨S_, .f32⟩
  | .hbm, ⟨4, _⟩ => ⟨S8x256x512x32, .f32⟩
  | .hbm, ⟨5, _⟩ => ⟨S8x256x512x32, .f32⟩
  | .hbm, ⟨6, _⟩ => ⟨S8x256x512x32, .f32⟩
  | .hbm, ⟨7, _⟩ => ⟨S_, .f32⟩
  | .hbm, ⟨8, _⟩ => ⟨S8x256x512, .f32⟩
  | .hbm, ⟨9, _⟩ => ⟨S_, .i32⟩
  | .hbm, ⟨10, _⟩ => ⟨S_, .f32⟩
  | .hbm, ⟨11, _⟩ => ⟨S8x256x513x32, .f32⟩
  | .hbm, ⟨12, _⟩ => ⟨S8x256x512x32, .f32⟩
  | .hbm, ⟨13, _⟩ => ⟨S8x256x512x32, .f32⟩
  | .hbm, ⟨14, _⟩ => ⟨S8x256x512x32, .f32⟩
  | .hbm, ⟨15, _⟩ => ⟨S_, .f32⟩
  | .hbm, ⟨16, _⟩ => ⟨S8x256x512, .f32⟩
  | .hbm, ⟨17, _⟩ => ⟨S_, .i32⟩
  | .hbm, ⟨18, _⟩ => ⟨S_, .f32⟩
  | .hbm, ⟨19, _⟩ => ⟨S8x256x514x32, .f32⟩
  | .hbm, ⟨20, _⟩ => ⟨S8x256x512x32, .f32⟩
  | .hbm, ⟨21, _⟩ => ⟨S8x256x512x32, .f32⟩
  | .hbm, ⟨22, _⟩ => ⟨S8x256x512x32, .f32⟩
  | .hbm, ⟨23, _⟩ => ⟨S_, .f32⟩
  | .hbm, ⟨24, _⟩ => ⟨S8x256x512, .f32⟩
  | .hbm, ⟨25, _⟩ => ⟨S_, .i32⟩
  | .hbm, ⟨26, _⟩ => ⟨S_, .f32⟩
  | .hbm, ⟨27, _⟩ => ⟨S8x256x515x32, .f32⟩
  | .hbm, ⟨28, _⟩ => ⟨S8x256x512x32, .f32⟩
  | .hbm, ⟨29, _⟩ => ⟨S8x256x512x32, .f32⟩
  | .hbm, ⟨30, _⟩ => ⟨S8x256x512x32, .f32⟩
  | .hbm, ⟨31, _⟩ => ⟨S_, .f32⟩
  | .hbm, ⟨32, _⟩ => ⟨S8x256x512, .f32⟩
  | .hbm, ⟨33, _⟩ => ⟨S_, .i32⟩
  | .hbm, ⟨34, _⟩ => ⟨S_, .f32⟩
  | .hbm, ⟨35, _⟩ => ⟨S8x256x516x32, .f32⟩
  | .hbm, ⟨36, _⟩ => ⟨S8x256x512x32, .f32⟩
  | .hbm, ⟨37, _⟩ => ⟨S8x256x512x32, .f32⟩
  | .hbm, ⟨38, _⟩ => ⟨S8x256x512x32, .f32⟩
  | .hbm, ⟨39, _⟩ => ⟨S_, .f32⟩
  | .hbm, ⟨40, _⟩ => ⟨S8x256x512, .f32⟩
  | .hbm, ⟨41, _⟩ => ⟨S_, .i32⟩
  | .hbm, ⟨42, _⟩ => ⟨S_, .f32⟩
  | .hbm, ⟨43, _⟩ => ⟨S8x256x517x32, .f32⟩
  | .hbm, ⟨44, _⟩ => ⟨S8x256x512x32, .f32⟩
  | .hbm, ⟨45, _⟩ => ⟨S8x256x512x32, .f32⟩
  | .hbm, ⟨46, _⟩ => ⟨S8x256x512x32, .f32⟩
  | .hbm, ⟨47, _⟩ => ⟨S_, .f32⟩
  | .hbm, ⟨48, _⟩ => ⟨S8x256x512, .f32⟩
  | .hbm, ⟨49, _⟩ => ⟨S_, .i32⟩
  | .hbm, ⟨50, _⟩ => ⟨S_, .f32⟩
  | .hbm, ⟨51, _⟩ => ⟨S8x256x518x32, .f32⟩
  | .hbm, ⟨52, _⟩ => ⟨S8x256x512x32, .f32⟩
  | .hbm, ⟨53, _⟩ => ⟨S8x256x512x32, .f32⟩
  | .hbm, ⟨54, _⟩ => ⟨S8x256x512x32, .f32⟩
  | .hbm, ⟨55, _⟩ => ⟨S_, .f32⟩
  | .hbm, ⟨56, _⟩ => ⟨S8x256x512, .f32⟩
  | .hbm, ⟨57, _⟩ => ⟨S_, .i32⟩
  | .hbm, ⟨58, _⟩ => ⟨S_, .f32⟩
  | .hbm, ⟨59, _⟩ => ⟨S8x256x519x32, .f32⟩
  | .hbm, ⟨60, _⟩ => ⟨S8x256x512x32, .f32⟩
  | .hbm, ⟨61, _⟩ => ⟨S8x256x512x32, .f32⟩
  | .hbm, ⟨62, _⟩ => ⟨S8x256x512x32, .f32⟩
  | .hbm, ⟨63, _⟩ => ⟨S_, .f32⟩
  | .hbm, ⟨64, _⟩ => ⟨S8x256x512, .f32⟩
  | .hbm, ⟨65, _⟩ => ⟨S_, .i32⟩
  | .hbm, ⟨66, _⟩ => ⟨S_, .f32⟩
  | .hbm, ⟨67, _⟩ => ⟨S8x256x520x32, .f32⟩
  | .hbm, ⟨68, _⟩ => ⟨S8x256x512x32, .f32⟩
  | .hbm, ⟨69, _⟩ => ⟨S8x256x512x32, .f32⟩
  | .hbm, ⟨70, _⟩ => ⟨S8x256x512x32, .f32⟩
  | .hbm, ⟨71, _⟩ => ⟨S_, .f32⟩
  | .hbm, ⟨72, _⟩ => ⟨S8x256x512, .f32⟩
  | .hbm, ⟨73, _⟩ => ⟨S_, .i32⟩
  | .hbm, ⟨74, _⟩ => ⟨S_, .f32⟩
  | .hbm, ⟨75, _⟩ => ⟨S8x256x521x32, .f32⟩
  | .hbm, ⟨76, _⟩ => ⟨S8x256x512x32, .f32⟩
  | .hbm, ⟨77, _⟩ => ⟨S8x256x512x32, .f32⟩
  | .hbm, ⟨78, _⟩ => ⟨S8x256x512x32, .f32⟩
  | .hbm, ⟨79, _⟩ => ⟨S_, .f32⟩
  | .hbm, ⟨80, _⟩ => ⟨S8x256x512, .f32⟩
  | .hbm, ⟨81, _⟩ => ⟨S_, .i32⟩
  | .hbm, ⟨82, _⟩ => ⟨S_, .f32⟩
  | .hbm, ⟨83, _⟩ => ⟨S8x256x522x32, .f32⟩
  | .hbm, ⟨84, _⟩ => ⟨S8x256x512x32, .f32⟩
  | .hbm, ⟨85, _⟩ => ⟨S8x256x512x32, .f32⟩
  | .hbm, ⟨86, _⟩ => ⟨S8x256x512x32, .f32⟩
  | .hbm, ⟨87, _⟩ => ⟨S_, .f32⟩
  | .hbm, ⟨88, _⟩ => ⟨S8x256x512, .f32⟩
  | .hbm, ⟨89, _⟩ => ⟨S_, .i32⟩
  | .hbm, ⟨90, _⟩ => ⟨S_, .f32⟩
  | .hbm, ⟨91, _⟩ => ⟨S8x256x523x32, .f32⟩
  | .hbm, ⟨92, _⟩ => ⟨S8x256x512x32, .f32⟩
  | .hbm, ⟨93, _⟩ => ⟨S8x256x512x32, .f32⟩
  | .hbm, ⟨94, _⟩ => ⟨S8x256x512x32, .f32⟩
  | .hbm, ⟨95, _⟩ => ⟨S_, .f32⟩
  | .hbm, ⟨96, _⟩ => ⟨S8x256x512, .f32⟩
  | .hbm, ⟨97, _⟩ => ⟨S8x256x512x1, .f32⟩
  | .hbm, ⟨98, _⟩ => ⟨S8x256x512x1, .f32⟩
  | .hbm, ⟨99, _⟩ => ⟨S8x256x512x1, .f32⟩
  | .hbm, ⟨100, _⟩ => ⟨S8x256x512x1, .f32⟩
  | .hbm, ⟨101, _⟩ => ⟨S8x256x512x1, .f32⟩
  | .hbm, ⟨102, _⟩ => ⟨S8x256x512x1, .f32⟩
  | .hbm, ⟨103, _⟩ => ⟨S8x256x512x1, .f32⟩
  | .hbm, ⟨104, _⟩ => ⟨S8x256x512x1, .f32⟩
  | .hbm, ⟨105, _⟩ => ⟨S8x256x512x1, .f32⟩
  | .hbm, ⟨106, _⟩ => ⟨S8x256x512x1, .f32⟩
  | .hbm, ⟨107, _⟩ => ⟨S8x256x512x1, .f32⟩
  | .hbm, ⟨108, _⟩ => ⟨S8x256x512x1, .f32⟩
  | .hbm, ⟨109, _⟩ => ⟨S8x256x512x12, .f32⟩
  | _, _ => ⟨S8x256x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_c_2 : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_c_4 : Ref sig .tc := ⟨.hbm, 25, rfl⟩
abbrev main_call3_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_c_6 : Ref sig .tc := ⟨.hbm, 33, rfl⟩
abbrev main_call4_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_c_8 : Ref sig .tc := ⟨.hbm, 41, rfl⟩
abbrev main_call5_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_c_10 : Ref sig .tc := ⟨.hbm, 49, rfl⟩
abbrev main_call6_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_11 : Ref sig .tc := ⟨.hbm, 55, rfl⟩
abbrev main_v33 : Ref sig .tc := ⟨.hbm, 56, rfl⟩
abbrev main_c_12 : Ref sig .tc := ⟨.hbm, 57, rfl⟩
abbrev main_call7_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_13 : Ref sig .tc := ⟨.hbm, 63, rfl⟩
abbrev main_v38 : Ref sig .tc := ⟨.hbm, 64, rfl⟩
abbrev main_c_14 : Ref sig .tc := ⟨.hbm, 65, rfl⟩
abbrev main_call8_v0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_c_16 : Ref sig .tc := ⟨.hbm, 73, rfl⟩
abbrev main_call9_v0 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_17 : Ref sig .tc := ⟨.hbm, 79, rfl⟩
abbrev main_v48 : Ref sig .tc := ⟨.hbm, 80, rfl⟩
abbrev main_c_18 : Ref sig .tc := ⟨.hbm, 81, rfl⟩
abbrev main_call10_v0 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_19 : Ref sig .tc := ⟨.hbm, 87, rfl⟩
abbrev main_v53 : Ref sig .tc := ⟨.hbm, 88, rfl⟩
abbrev main_c_20 : Ref sig .tc := ⟨.hbm, 89, rfl⟩
abbrev main_call11_v0 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_21 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩

abbrev nD : Nat := 1
abbrev τ : Topo := Topo.v7x

variable {F : FTy → Type} [FloatOps F]

class Facts₀ : Prop where
  pads_S8x256x512x32_S8x256x512x32_000_000_000_000 : S8x256x512x32.Pads (![0, 0, 0, 0] : Fin 4 → Nat) ![0, 0, 0, 0] ![0, 0, 0, 0] S8x256x512x32
  h_S_ : 0 < S_.numel
  reducesTo_S8x256x512x32_S8x256x512_d3 : S8x256x512x32.ReducesTo [3] S8x256x512
  pads_S8x256x512x32_S8x256x513x32_000_000_100_000 : S8x256x512x32.Pads (![0, 0, 1, 0] : Fin 4 → Nat) ![0, 0, 0, 0] ![0, 0, 0, 0] S8x256x513x32
  slices_S8x256x513x32_S8x256x512x32_0_0_0_0 : S8x256x513x32.Slices ![0, 0, 0, 0] S8x256x512x32
  pads_S8x256x512x32_S8x256x514x32_000_000_200_000 : S8x256x512x32.Pads (![0, 0, 2, 0] : Fin 4 → Nat) ![0, 0, 0, 0] ![0, 0, 0, 0] S8x256x514x32
  slices_S8x256x514x32_S8x256x512x32_0_0_0_0 : S8x256x514x32.Slices ![0, 0, 0, 0] S8x256x512x32
  pads_S8x256x512x32_S8x256x515x32_000_000_300_000 : S8x256x512x32.Pads (![0, 0, 3, 0] : Fin 4 → Nat) ![0, 0, 0, 0] ![0, 0, 0, 0] S8x256x515x32
  slices_S8x256x515x32_S8x256x512x32_0_0_0_0 : S8x256x515x32.Slices ![0, 0, 0, 0] S8x256x512x32
  pads_S8x256x512x32_S8x256x516x32_000_000_400_000 : S8x256x512x32.Pads (![0, 0, 4, 0] : Fin 4 → Nat) ![0, 0, 0, 0] ![0, 0, 0, 0] S8x256x516x32
  slices_S8x256x516x32_S8x256x512x32_0_0_0_0 : S8x256x516x32.Slices ![0, 0, 0, 0] S8x256x512x32
  pads_S8x256x512x32_S8x256x517x32_000_000_500_000 : S8x256x512x32.Pads (![0, 0, 5, 0] : Fin 4 → Nat) ![0, 0, 0, 0] ![0, 0, 0, 0] S8x256x517x32
  slices_S8x256x517x32_S8x256x512x32_0_0_0_0 : S8x256x517x32.Slices ![0, 0, 0, 0] S8x256x512x32
  pads_S8x256x512x32_S8x256x518x32_000_000_600_000 : S8x256x512x32.Pads (![0, 0, 6, 0] : Fin 4 → Nat) ![0, 0, 0, 0] ![0, 0, 0, 0] S8x256x518x32
  slices_S8x256x518x32_S8x256x512x32_0_0_0_0 : S8x256x518x32.Slices ![0, 0, 0, 0] S8x256x512x32
  pads_S8x256x512x32_S8x256x519x32_000_000_700_000 : S8x256x512x32.Pads (![0, 0, 7, 0] : Fin 4 → Nat) ![0, 0, 0, 0] ![0, 0, 0, 0] S8x256x519x32
  slices_S8x256x519x32_S8x256x512x32_0_0_0_0 : S8x256x519x32.Slices ![0, 0, 0, 0] S8x256x512x32
  pads_S8x256x512x32_S8x256x520x32_000_000_800_000 : S8x256x512x32.Pads (![0, 0, 8, 0] : Fin 4 → Nat) ![0, 0, 0, 0] ![0, 0, 0, 0] S8x256x520x32
  slices_S8x256x520x32_S8x256x512x32_0_0_0_0 : S8x256x520x32.Slices ![0, 0, 0, 0] S8x256x512x32
  pads_S8x256x512x32_S8x256x521x32_000_000_900_000 : S8x256x512x32.Pads (![0, 0, 9, 0] : Fin 4 → Nat) ![0, 0, 0, 0] ![0, 0, 0, 0] S8x256x521x32
  slices_S8x256x521x32_S8x256x512x32_0_0_0_0 : S8x256x521x32.Slices ![0, 0, 0, 0] S8x256x512x32
  pads_S8x256x512x32_S8x256x522x32_000_000_1000_000 : S8x256x512x32.Pads (![0, 0, 10, 0] : Fin 4 → Nat) ![0, 0, 0, 0] ![0, 0, 0, 0] S8x256x522x32
  slices_S8x256x522x32_S8x256x512x32_0_0_0_0 : S8x256x522x32.Slices ![0, 0, 0, 0] S8x256x512x32
  pads_S8x256x512x32_S8x256x523x32_000_000_1100_000 : S8x256x512x32.Pads (![0, 0, 11, 0] : Fin 4 → Nat) ![0, 0, 0, 0] ![0, 0, 0, 0] S8x256x523x32
  slices_S8x256x523x32_S8x256x512x32_0_0_0_0 : S8x256x523x32.Slices ![0, 0, 0, 0] S8x256x512x32
  bcast_S8x256x512_S8x256x512x1_0_1_2 : S8x256x512.BroadcastsInDim S8x256x512x1 (![0, 1, 2] : Fin 3 → Fin S8x256x512x1.rank)
  concatenates_S8x256x512x1_S8x256x512x1_S8x256x512x1_S8x256x512x1_S8x256x512x1_S8x256x512x1_S8x256x512x1_S8x256x512x1_S8x256x512x1_S8x256x512x1_S8x256x512x1_S8x256x512x1_S8x256x512x12_d3 : Shape.Concatenates [S8x256x512x1, S8x256x512x1, S8x256x512x1, S8x256x512x1, S8x256x512x1, S8x256x512x1, S8x256x512x1, S8x256x512x1, S8x256x512x1, S8x256x512x1, S8x256x512x1, S8x256x512x1] S8x256x512x12 3

variable [Facts₀]

class Facts : Prop extends Facts₀ where

variable [Facts]
-- ==== Proof.ShiftedPlane.lean ====
/-
  One block of rows of the cost volume, as the vector unit computes it.

  A block holds 32 rows of an image, each row flattened to 512 pixels × 32 channels = 16384 lanes. For a disparity
  d the entry (p, q) of the cost plane is the L1 distance, over the 32 channels, between the left pixel q of row p
  and the right pixel q − d of the same row, the right pixel read as zero when q < d. The kernel gets the shifted
  right row by rotating the flattened row by 32·d lanes and masking the lanes below 32·d with zero: a rotation
  by a whole number of pixels keeps the channels of a pixel together, so lane 32·q + c of the rotated row is
  lane 32·(q − d) + c of the row when q ≥ d, and the lanes that came around the end are exactly those the mask
  zeroes. It then regroups the 16384 lanes as 512 × 32 and sums the last axis.
-/
import Idealize.ShloMosaic.Lib.KernelVsHost
import Idealize.ShloMosaic.Lib.ValueIdx
import Idealize.ShloMosaic.Lib.Pipeline.Value
import Idealize.ShloMosaic.PureOps.Ideal.Laws

noncomputable section

namespace Cert.CostVolume

open Idealize.ShloMosaic Idealize.ShloMosaic.ValueIdx

/-- 32 rows of 16384 lanes (512 pixels of 32 channels each, flattened). -/
abbrev SRows : Shape := ⟨2, ![32, 16384]⟩
/-- The same rows with the lanes regrouped as pixels × channels. -/
abbrev SGrouped : Shape := ⟨3, ![32, 512, 32]⟩
/-- One cost per pixel of each row. -/
abbrev SCost : Shape := ⟨2, ![32, 512]⟩
/-- A cost plane as it sits in the output block: one batch entry, 32 rows, one disparity, 512 pixels. -/
abbrev SPlane : Shape := ⟨4, ![1, 32, 1, 512]⟩

/-- Lane 32·q + c of a row: channel c of pixel q. -/
abbrev lane (q : Fin 512) (c : Fin 32) : Fin 16384 := ⟨32 * q.val + c.val, by omega⟩

/-- Lane 32·(q − d) + c: channel c of the pixel d places to the left of q (of pixel 0 when q < d; never read then). -/
abbrev laneBack (d : ℕ) (q : Fin 512) (c : Fin 32) : Fin 16384 := ⟨32 * (q.val - d) + c.val, by omega⟩

/-- Entry (p, q) of disparity d's cost plane over a block of rows: Σ_c |l[p, q, c] − r[p, q − d, c]|, the right
    pixel zero when q < d. -/
def planeEntry (d : ℕ) (l r : FVec Ideal SRows .f32) (p : Fin 32) (q : Fin 512) : Ideal .f32 :=
  ∑ c : Fin 32, FloatOps.absf (l (ix2 p (lane q c)) - (if d ≤ q.val then r (ix2 p (laneBack d q c)) else 0))

/-- The signed comparison "lane number ≥ shift" of two small words is the comparison of the numbers. -/
theorem cmpi_sge_ofNat (sb : BitVec 32) (n s : ℕ) (hs : sb.toNat = s) (hs' : s < 2 ^ 31) (hn : n < 2 ^ 31) :
    IntOp.cmpi .sge (BitVec.ofNat 32 n) sb = if s ≤ n then 1#1 else 0#1 := by
  have h1 : sb.toInt = (s : ℤ) := by
    rw [BitVec.toInt_eq_toNat_of_lt (by omega), hs]
  have h2 : (BitVec.ofNat 32 n).toInt = (n : ℤ) := by
    have e : (BitVec.ofNat 32 n).toNat = n := by
      rw [BitVec.toNat_ofNat]; exact Nat.mod_eq_of_lt (by omega)
    rw [BitVec.toInt_eq_toNat_of_lt (by omega), e]
  show BitVec.ofBool (sb.sle (BitVec.ofNat 32 n)) = _
  by_cases h : s ≤ n
  · have e : sb.sle (BitVec.ofNat 32 n) = true :=
      BitVec.sle_iff_toInt_le.mpr (by rw [h1, h2]; exact_mod_cast h)
    rw [e, if_pos h]; rfl
  · have e : sb.sle (BitVec.ofNat 32 n) = false := by
      rw [Bool.eq_false_iff]
      intro hh
      have := BitVec.sle_iff_toInt_le.mp hh
      rw [h1, h2] at this
      exact h (by exact_mod_cast this)
    rw [e, if_neg h]; rfl

/-- The zero word is the real zero. -/
theorem fill_zero : (Scalar.ofBits (F := Ideal) .f32 0x00000000#32 : Ideal .f32) = 0 := Ideal.ofBits_zero_f32

/-- **The shifted plane at an entry.** The rotation of the right rows by the word sb = 32·d along the lanes, masked
    below lane 32·d with zero, subtracted from the left rows, in absolute value, regrouped as pixels × channels and
    summed over the channels, then laid as a plane of the output block, reads at (·, p, ·, q) the plane's entry. -/
theorem shiftedPlane_apply (sb : BitVec 32) (d : ℕ) (hsb : sb.toNat = 32 * d) (hd : d < 512)
    (l r : FVec Ideal SRows .f32)
    (hI : SRows.Iotas .tc 32 [1]) (hR : SRows.Rotates 1 none) (hG : SRows.ShapeCasts SGrouped)
    (hS : SGrouped.Reduces [2] SCost) (hφ : FKind.Formats .f32)
    (hacc : (0x00000000#32 : BitVec 32) = FKind.add.neutral .f32 hφ)
    (hP : SCost.ShapeCasts SPlane) (u : Fin 1) (p : Fin 32) (v : Fin 1) (q : Fin 512) :
    shapeCast SPlane
        (multiReduction .add [2] SCost
          (shapeCast SGrouped
            (absf (subf l (select (cmpi .sge (iota .tc SRows 32 [1] hI) (broadcast SRows sb))
              (dynamicRotate 1 sb none r hR) (broadcast SRows (Scalar.ofBits (F := Ideal) .f32 0x00000000#32)))))
            hG) 0x00000000#32 hS hφ hacc) hP (ix4 u p v q)
      = planeEntry d l r p q := by
  unfold planeEntry
  have hu : u.val = 0 := by omega
  have hv : v.val = 0 := by omega
  refine (shapeCast_apply _ hP (ix4 u p v q) (ix2 p q) ?_).trans ?_
  · rw [Shape.rowMajor_val_two, Shape.rowMajor_val_four]
    show p.val * 512 + q.val = ((u.val * 32 + p.val) * 1 + v.val) * 512 + q.val
    rw [hu, hv]; omega
  refine (Ideal.multiReduction_add_single _ 0x00000000#32 hS hφ hacc (ix2 p q)).trans ?_
  refine Finset.sum_congr rfl fun (c : Fin 32) _ => ?_
  have hc : c.val < 32 := c.isLt
  have hq : q.val < 512 := q.isLt
  refine (shapeCast_apply _ hG (hS.lift (ix2 p q) c) (ix2 p (lane q c)) ?_).trans ?_
  · rw [Shape.rowMajor_val_two, Shape.rowMajor_val_three]
    show p.val * 16384 + (32 * q.val + c.val) = (p.val * 512 + q.val) * 32 + c.val
    omega
  show FloatOps.absf (l (ix2 p (lane q c)) - Scalar.select
      (IntOp.cmpi .sge (iota .tc SRows 32 [1] hI (ix2 p (lane q c))) sb)
      (dynamicRotate 1 sb none r hR (ix2 p (lane q c))) (Scalar.ofBits (F := Ideal) .f32 0x00000000#32)) = _
  rw [iota_single_apply, fill_zero]
  rw [cmpi_sge_ofNat sb (32 * q.val + c.val) (32 * d) hsb (by omega) (by omega)]
  by_cases hdq : d ≤ q.val
  · have hle : 32 * d ≤ 32 * q.val + c.val := by omega
    rw [if_pos hle, if_pos hdq, select_one]
    refine congrArg (fun z => FloatOps.absf (l (ix2 p (lane q c)) - z)) ?_
    refine dynamicRotate_apply 1 sb r hR (ix2 p (lane q c)) (ix2 p (laneBack d q c)) fun b => ?_
    match b with
    | ⟨0, _⟩ => rfl
    | ⟨1, _⟩ =>
      show 32 * (q.val - d) + c.val = (32 * q.val + c.val + 16384 - sb.toNat % 16384) % 16384
      rw [hsb]
      omega
  · have hnle : ¬ 32 * d ≤ 32 * q.val + c.val := by omega
    rw [if_neg hnle, if_neg hdq, select_zero]

/-- **The unshifted plane at an entry** (disparity 0: no rotation, no mask). -/
theorem plainPlane_apply (l r : FVec Ideal SRows .f32) (hG : SRows.ShapeCasts SGrouped)
    (hS : SGrouped.Reduces [2] SCost) (hφ : FKind.Formats .f32)
    (hacc : (0x00000000#32 : BitVec 32) = FKind.add.neutral .f32 hφ)
    (hP : SCost.ShapeCasts SPlane) (u : Fin 1) (p : Fin 32) (v : Fin 1) (q : Fin 512) :
    shapeCast SPlane
        (multiReduction .add [2] SCost (shapeCast SGrouped (absf (subf l r)) hG) 0x00000000#32 hS hφ hacc) hP
        (ix4 u p v q)
      = planeEntry 0 l r p q := by
  unfold planeEntry
  have hu : u.val = 0 := by omega
  have hv : v.val = 0 := by omega
  refine (shapeCast_apply _ hP (ix4 u p v q) (ix2 p q) ?_).trans ?_
  · rw [Shape.rowMajor_val_two, Shape.rowMajor_val_four]
    show p.val * 512 + q.val = ((u.val * 32 + p.val) * 1 + v.val) * 512 + q.val
    rw [hu, hv]; omega
  refine (Ideal.multiReduction_add_single _ 0x00000000#32 hS hφ hacc (ix2 p q)).trans ?_
  refine Finset.sum_congr rfl fun (c : Fin 32) _ => ?_
  have hc : c.val < 32 := c.isLt
  have hq : q.val < 512 := q.isLt
  refine (shapeCast_apply _ hG (hS.lift (ix2 p q) c) (ix2 p (lane q c)) ?_).trans ?_
  · rw [Shape.rowMajor_val_two, Shape.rowMajor_val_three]
    show p.val * 16384 + (32 * q.val + c.val) = (p.val * 512 + q.val) * 32 + c.val
    omega
  show FloatOps.absf (l (ix2 p (lane q c)) - r (ix2 p (lane q c))) = _
  rw [if_pos (Nat.zero_le _)]
  rfl

end Cert.CostVolume

end
-- ==== Proof.Block.lean ====
/-
  The output block of one grid point as a function of its two input blocks.

  The body writes the block [1, 32, 12, 512] plane by plane: plane d (the entries with third coordinate d) is the
  cost plane of disparity d over the block's 32 rows, and the twelve planes tile the block. So the block, read
  at (·, p, d, q), is the entry (p, q) of disparity d's plane, whichever store wrote it.
-/
import proofs.«142062_j22531398435045_2_alg».proof.Proof.Gen.KernelIdeal.Frame
import proofs.«142062_j22531398435045_2_alg».proof.Proof.ShiftedPlane

noncomputable section

namespace Cert.CostVolume

open Idealize.ShloMosaic Idealize.ShloMosaic.ValueIdx Cert.KernelIdeal Cert.KernelIdeal.Gen

/-- The rows of an input block: its one batch entry dropped. -/
abbrev rowsL (x0 : Vec Ideal S1x32x16384 .f32) : FVec Ideal S32x16384 .f32 := k0_pay2 (View.ld x0 r0_0)
abbrev rowsR (x1 : Vec Ideal S1x32x16384 .f32) : FVec Ideal S32x16384 .f32 := k0_pay3 (View.ld x1 r0_0)

/-- The output block over the input blocks x0 (left) and x1 (right): at (·, p, d, q) the entry (p, q) of
    disparity d's cost plane over the blocks' rows. -/
def blockFn (x0 x1 : Vec Ideal S1x32x16384 .f32) : S1x32x12x512.Idx → Ideal .f32 := fun y =>
  planeEntry (y 2).val (rowsL x0) (rowsR x1) ⟨(y 1).val, (y 1).isLt⟩ ⟨(y 3).val, (y 3).isLt⟩

/-- The block read at an index of plane dd's rectangle. -/
theorem blockFn_plane (dd : ℕ) (inb : ∀ a, (![0, 0, dd, 0] : Fin 4 → Nat) a + S1x32x1x512.size a ≤ S1x32x12x512.size a)
    (x0 x1 : Vec Ideal S1x32x16384 .f32) (u : Fin 1) (p : Fin 32) (v : Fin 1) (q : Fin 512) :
    blockFn x0 x1 ((Rect.unit (s := S1x32x12x512) ![0, 0, dd, 0] S1x32x1x512.size inb).emb (ix4 u p v q))
      = planeEntry dd (rowsL x0) (rowsR x1) p q := by
  have hv : v.val = 0 := by omega
  unfold blockFn
  refine congr (congr (congrArg (fun a => planeEntry a (rowsL x0) (rowsR x1)) ?_) ?_) ?_
  · show dd + 1 * v.val = dd
    omega
  · exact Fin.ext (by show 0 + 1 * p.val = p.val; omega)
  · exact Fin.ext (by show 0 + 1 * q.val = q.val; omega)

/-! ## The twelve stores' values: each is its disparity's plane -/

theorem plane0 (x0 x1 : Vec Ideal S1x32x16384 .f32) (u : Fin 1) (p : Fin 32) (v : Fin 1) (q : Fin 512) :
    k0_pay4 (View.ld x0 r0_0) (View.ld x1 r0_0) (ix4 u p v q) = planeEntry 0 (rowsL x0) (rowsR x1) p q := by
  unfold k0_pay4
  exact plainPlane_apply (rowsL x0) (rowsR x1) _ _ _ _ _ u p v q

theorem plane1 (x0 x1 : Vec Ideal S1x32x16384 .f32) (u : Fin 1) (p : Fin 32) (v : Fin 1) (q : Fin 512) :
    k0_pay5 (View.ld x0 r0_0) (View.ld x1 r0_0) (ix4 u p v q) = planeEntry 1 (rowsL x0) (rowsR x1) p q := by
  unfold k0_pay5
  exact shiftedPlane_apply 32#32 1 rfl (by omega) (rowsL x0) (rowsR x1) _ _ _ _ _ _ _ u p v q

theorem plane2 (x0 x1 : Vec Ideal S1x32x16384 .f32) (u : Fin 1) (p : Fin 32) (v : Fin 1) (q : Fin 512) :
    k0_pay7 (k0_pay6 (View.ld x0 r0_0) (View.ld x1 r0_0)) (ix4 u p v q) = planeEntry 2 (rowsL x0) (rowsR x1) p q := by
  unfold k0_pay7 k0_pay6
  exact shiftedPlane_apply 64#32 2 rfl (by omega) (rowsL x0) (rowsR x1) _ _ _ _ _ _ _ u p v q

theorem plane3 (l r : FVec Ideal S32x16384 .f32) (hI : S32x16384.Iotas .tc 32 [1])
    (u : Fin 1) (p : Fin 32) (v : Fin 1) (q : Fin 512) :
    k0_pay8 l r (iota .tc S32x16384 32 [1] hI) (ix4 u p v q) = planeEntry 3 l r p q := by
  unfold k0_pay8
  exact shiftedPlane_apply 96#32 3 rfl (by omega) l r _ _ _ _ _ _ _ u p v q

theorem plane4 (l r : FVec Ideal S32x16384 .f32) (hI : S32x16384.Iotas .tc 32 [1])
    (u : Fin 1) (p : Fin 32) (v : Fin 1) (q : Fin 512) :
    k0_pay9 l r (iota .tc S32x16384 32 [1] hI) (ix4 u p v q) = planeEntry 4 l r p q := by
  unfold k0_pay9
  exact shiftedPlane_apply 128#32 4 rfl (by omega) l r _ _ _ _ _ _ _ u p v q

theorem plane5 (l r : FVec Ideal S32x16384 .f32) (hI : S32x16384.Iotas .tc 32 [1])
    (u : Fin 1) (p : Fin 32) (v : Fin 1) (q : Fin 512) :
    k0_pay11 (k0_pay10 l r (iota .tc S32x16384 32 [1] hI)) (ix4 u p v q) = planeEntry 5 l r p q := by
  unfold k0_pay11 k0_pay10
  exact shiftedPlane_apply 160#32 5 rfl (by omega) l r _ _ _ _ _ _ _ u p v q

theorem plane6 (l r : FVec Ideal S32x16384 .f32) (hI : S32x16384.Iotas .tc 32 [1])
    (u : Fin 1) (p : Fin 32) (v : Fin 1) (q : Fin 512) :
    k0_pay12 l r (iota .tc S32x16384 32 [1] hI) (ix4 u p v q) = planeEntry 6 l r p q := by
  unfold k0_pay12
  exact shiftedPlane_apply 192#32 6 rfl (by omega) l r _ _ _ _ _ _ _ u p v q

theorem plane7 (l r : FVec Ideal S32x16384 .f32) (hI : S32x16384.Iotas .tc 32 [1])
    (u : Fin 1) (p : Fin 32) (v : Fin 1) (q : Fin 512) :
    k0_pay13 l r (iota .tc S32x16384 32 [1] hI) (ix4 u p v q) = planeEntry 7 l r p q := by
  unfold k0_pay13
  exact shiftedPlane_apply 224#32 7 rfl (by omega) l r _ _ _ _ _ _ _ u p v q

theorem plane8 (l r : FVec Ideal S32x16384 .f32) (hI : S32x16384.Iotas .tc 32 [1])
    (u : Fin 1) (p : Fin 32) (v : Fin 1) (q : Fin 512) :
    k0_pay17 l (k0_pay14 r) (k0_pay15 (iota .tc S32x16384 32 [1] hI)) (k0_pay16 (F := Ideal)) (ix4 u p v q) = planeEntry 8 l r p q := by
  unfold k0_pay17 k0_pay14 k0_pay15 k0_pay16
  exact shiftedPlane_apply 256#32 8 rfl (by omega) l r _ _ _ _ _ _ _ u p v q

theorem plane9 (l r : FVec Ideal S32x16384 .f32) (hI : S32x16384.Iotas .tc 32 [1])
    (u : Fin 1) (p : Fin 32) (v : Fin 1) (q : Fin 512) :
    k0_pay18 l r (iota .tc S32x16384 32 [1] hI) (ix4 u p v q) = planeEntry 9 l r p q := by
  unfold k0_pay18
  exact shiftedPlane_apply 288#32 9 rfl (by omega) l r _ _ _ _ _ _ _ u p v q

theorem plane10 (l r : FVec Ideal S32x16384 .f32) (hI : S32x16384.Iotas .tc 32 [1])
    (u : Fin 1) (p : Fin 32) (v : Fin 1) (q : Fin 512) :
    k0_pay19 l r (iota .tc S32x16384 32 [1] hI) (ix4 u p v q) = planeEntry 10 l r p q := by
  unfold k0_pay19
  exact shiftedPlane_apply 320#32 10 rfl (by omega) l r _ _ _ _ _ _ _ u p v q

theorem plane11 (l r : FVec Ideal S32x16384 .f32) (hI : S32x16384.Iotas .tc 32 [1])
    (u : Fin 1) (p : Fin 32) (v : Fin 1) (q : Fin 512) :
    k0_pay1 l (iota .tc S32x16384 32 [1] hI) (k0_pay20 r) k0_pay21 (ix4 u p v q) = planeEntry 11 l r p q := by
  unfold k0_pay1 k0_pay20 k0_pay21
  exact shiftedPlane_apply 352#32 11 rfl (by omega) l r _ _ _ _ _ _ _ u p v q

/-- **What the body leaves in the output block**: the block's function of the two input blocks. -/
theorem out_block (x0 x1 : Vec Ideal S1x32x16384 .f32) : out0_2 (F := Ideal) x0 x1 = blockFn x0 x1 := by
  funext y
  unfold out0_2
  refine View.canon_apply_of_pieces (Val := Elt Ideal) (S := S1x32x12x512) (e := .f32) (blockFn x0 x1) _ ?_ y (cover0_2 _ _ _ _ _ _ _ _ _ _ _ _ y)
  intro pc hpc
  simp only [List.mem_cons, List.mem_nil_iff, or_false] at hpc
  rcases hpc with rfl | rfl | rfl | rfl | rfl | rfl | rfl | rfl | rfl | rfl | rfl | rfl
  all_goals intro x
  all_goals obtain ⟨u, p, v, q, rfl⟩ : ∃ (u : Fin 1) (p : Fin 32) (v : Fin 1) (q : Fin 512), x = ix4 u p v q :=
    ⟨x 0, x 1, x 2, x 3, eq_ix4 (n0 := 1) (n1 := 32) (n2 := 1) (n3 := 512) x⟩
  · exact (plane11 _ _ _ u p v q).trans (blockFn_plane 11 inb_S1x32x12x512_S1x32x1x512_0_0_11_0 x0 x1 u p v q).symm
  · exact (plane10 _ _ _ u p v q).trans (blockFn_plane 10 inb_S1x32x12x512_S1x32x1x512_0_0_10_0 x0 x1 u p v q).symm
  · exact (plane9 _ _ _ u p v q).trans (blockFn_plane 9 inb_S1x32x12x512_S1x32x1x512_0_0_9_0 x0 x1 u p v q).symm
  · exact (plane8 _ _ _ u p v q).trans (blockFn_plane 8 inb_S1x32x12x512_S1x32x1x512_0_0_8_0 x0 x1 u p v q).symm
  · exact (plane7 _ _ _ u p v q).trans (blockFn_plane 7 inb_S1x32x12x512_S1x32x1x512_0_0_7_0 x0 x1 u p v q).symm
  · exact (plane6 _ _ _ u p v q).trans (blockFn_plane 6 inb_S1x32x12x512_S1x32x1x512_0_0_6_0 x0 x1 u p v q).symm
  · exact (plane5 _ _ _ u p v q).trans (blockFn_plane 5 inb_S1x32x12x512_S1x32x1x512_0_0_5_0 x0 x1 u p v q).symm
  · exact (plane4 _ _ _ u p v q).trans (blockFn_plane 4 inb_S1x32x12x512_S1x32x1x512_0_0_4_0 x0 x1 u p v q).symm
  · exact (plane3 _ _ _ u p v q).trans (blockFn_plane 3 inb_S1x32x12x512_S1x32x1x512_0_0_3_0 x0 x1 u p v q).symm
  · exact (plane2 x0 x1 u p v q).trans (blockFn_plane 2 inb_S1x32x12x512_S1x32x1x512_0_0_2_0 x0 x1 u p v q).symm
  · exact (plane1 x0 x1 u p v q).trans (blockFn_plane 1 inb_S1x32x12x512_S1x32x1x512_0_0_1_0 x0 x1 u p v q).symm
  · exact (plane0 x0 x1 u p v q).trans (blockFn_plane 0 inb_S1x32x12x512_S1x32x1x512_0_0_0_0 x0 x1 u p v q).symm

end Cert.CostVolume

end
-- ==== Proof.Array.lean ====
/-
  From blocks to the array: what the region leaves in its output array.

  The grid is 8 batch entries × 8 bands of 32 rows. Point (b, hb) reads rows 32·hb … 32·hb + 31 of batch entry b
  of the two flattened inputs [8, 256, 16384] and writes block (b, hb) of the output [8, 256, 12, 512]: all
  twelve disparities and all 512 pixels of those rows. The 64 blocks tile the output, and each block is the
  restriction of ONE function of the two whole arrays, so the array ends holding that function.
-/
import proofs.«142062_j22531398435045_2_alg».proof.Proof.Gen.KernelIdeal.Frame
import proofs.«142062_j22531398435045_2_alg».proof.Proof.Block
import Idealize.ShloMosaic.Lib.Pipeline.Value

set_option maxRecDepth 16384

noncomputable section

namespace Cert.CostVolume

open Idealize.ShloMosaic Idealize.ShloMosaic.ValueIdx Idealize.ShloMosaic.TcCoe Idealize.SL.Sem
open Cert.KernelIdeal Cert.KernelIdeal.Gen

/-- The region's output as a function of the flattened inputs: at (b, h, d, w) the L1 distance over the 32
    channels between the left pixel w and the right pixel w − d of row h of batch entry b, the right pixel zero
    when w < d. -/
def flatCost (A0 A1 : S8x256x16384.Idx → Ideal .f32) : S8x256x12x512.Idx → Ideal .f32 := fun i =>
  ∑ c : Fin 32, FloatOps.absf
    (A0 (ix3 (⟨(i 0).val, (i 0).isLt⟩ : Fin 8) (⟨(i 1).val, (i 1).isLt⟩ : Fin 256) (lane ⟨(i 3).val, (i 3).isLt⟩ c))
      - (if (i 2).val ≤ (i 3).val then
          A1 (ix3 (⟨(i 0).val, (i 0).isLt⟩ : Fin 8) (⟨(i 1).val, (i 1).isLt⟩ : Fin 256)
            (laneBack (i 2).val ⟨(i 3).val, (i 3).isLt⟩ c))
        else 0))

theorem zeros3 : (![0, 0, 0] : Fin 3 → Nat) = fun _ => 0 := funext fun a => by fin_cases a <;> rfl

/-- Row p of an input block's rows is row p of the block's one batch entry. -/
theorem rowsL_apply (x0 : Vec Ideal S1x32x16384 .f32) (p : Fin 32) (k : Fin 16384) :
    rowsL x0 (ix2 p k) = x0 (ix3 (0 : Fin 1) p k) := by
  show shapeCast S32x16384 (View.ld x0 r0_0) _ (ix2 p k) = _
  refine (shapeCast_apply _ _ (ix2 p k) (ix3 (0 : Fin 1) p k) ?_).trans ?_
  · rw [Shape.rowMajor_val_two, Shape.rowMajor_val_three]
    show ((0 : ℕ) * 32 + p.val) * 16384 + k.val = p.val * 16384 + k.val
    omega
  · exact congrFun (View.ld_unit_zero (S := S1x32x16384) zeros3 _ x0) _

theorem rowsR_apply (x1 : Vec Ideal S1x32x16384 .f32) (p : Fin 32) (k : Fin 16384) :
    rowsR x1 (ix2 p k) = x1 (ix3 (0 : Fin 1) p k) := by
  show shapeCast S32x16384 (View.ld x1 r0_0) _ (ix2 p k) = _
  refine (shapeCast_apply _ _ (ix2 p k) (ix3 (0 : Fin 1) p k) ?_).trans ?_
  · rw [Shape.rowMajor_val_two, Shape.rowMajor_val_three]
    show ((0 : ℕ) * 32 + p.val) * 16384 + k.val = p.val * 16384 + k.val
    omega
  · exact congrFun (View.ld_unit_zero (S := S1x32x16384) zeros3 _ x1) _

/-- Input blocks that are rows 32·hi … 32·hi + 31 of batch entry bi of two arrays give an output block that is
    those rows of that batch entry of the arrays' cost. -/
theorem blockFn_rows (x0 x1 : Vec Ideal S1x32x16384 .f32) (A0 A1 : S8x256x16384.Idx → Ideal .f32) (bi hi : Fin 8)
    (h0 : ∀ (p : Fin 32) (k : Fin 16384),
      x0 (ix3 (0 : Fin 1) p k) = A0 (ix3 bi (⟨32 * hi.val + p.val, by omega⟩ : Fin 256) k))
    (h1 : ∀ (p : Fin 32) (k : Fin 16384),
      x1 (ix3 (0 : Fin 1) p k) = A1 (ix3 bi (⟨32 * hi.val + p.val, by omega⟩ : Fin 256) k))
    (u : Fin 1) (p : Fin 32) (d : Fin 12) (q : Fin 512) :
    blockFn x0 x1 (ix4 u p d q) = flatCost A0 A1 (ix4 bi (⟨32 * hi.val + p.val, by omega⟩ : Fin 256) d q) := by
  unfold blockFn flatCost planeEntry
  refine Finset.sum_congr rfl fun c _ => ?_
  show FloatOps.absf (rowsL x0 (ix2 p (lane q c))
      - (if d.val ≤ q.val then rowsR x1 (ix2 p (laneBack d.val q c)) else 0))
    = FloatOps.absf (A0 (ix3 bi (⟨32 * hi.val + p.val, by omega⟩ : Fin 256) (lane q c))
      - (if d.val ≤ q.val then A1 (ix3 bi (⟨32 * hi.val + p.val, by omega⟩ : Fin 256) (laneBack d.val q c)) else 0))
  rw [rowsL_apply, rowsR_apply, h0, h1]

variable (m : (ℓ : Loc nD τ sig) → Buf (Elt Ideal) ℓ)

/-- The printed index maps, decided over the grid: both inputs' blocks sit at the output block's batch entry and
    band, on their one lane block; the output's block sits on its one disparity block and its one pixel block. -/
theorem idx_facts : ∀ t : Fin cfg0.N,
    win0_0.index t (0 : Fin 3) = win0_2.index t (0 : Fin 4) ∧ win0_0.index t (1 : Fin 3) = win0_2.index t (1 : Fin 4)
    ∧ win0_0.index t (2 : Fin 3) = 0
    ∧ win0_1.index t (0 : Fin 3) = win0_2.index t (0 : Fin 4) ∧ win0_1.index t (1 : Fin 3) = win0_2.index t (1 : Fin 4)
    ∧ win0_1.index t (2 : Fin 3) = 0
    ∧ win0_2.index t (0 : Fin 4) < 8 ∧ win0_2.index t (1 : Fin 4) < 8
    ∧ win0_2.index t (2 : Fin 4) = 0 ∧ win0_2.index t (3 : Fin 4) = 0 :=
  (by decide +kernel : ∀ t : Fin grid0.N, _)

/-- Every (batch entry, band) is some point's. -/
theorem idx_onto : ∀ (q0 : Fin 8) (q1 : Fin 8), ∃ t : Fin cfg0.N, win0_2.index t = ![q0.val, q1.val, 0, 0] :=
  (by decide +kernel : ∀ (q0 : Fin 8) (q1 : Fin 8), ∃ t : Fin grid0.N, win0_2.index t = ![q0.val, q1.val, 0, 0])

/-- What point t writes back is block t of the cost of the flattened inputs as the region finds them. -/
theorem flushed_eq (c : Dev nD) (t : Fin cfg0.N) :
    (dats m 0 c).flushed 2 t
      = ((cfg0.win 2).blk t).view.read (Elt Ideal) (flatCost (V m c main_v0) (V m c main_v1)) := by
  show (cfg0.win 2).cut (grid0.coords t) ((dats m 0 c).after 2 t) = _
  rw [after0_2, out_block]
  obtain ⟨e00, e01, e02, e10, e11, e12, b0, b1, z2, z3⟩ := idx_facts t
  funext j
  obtain ⟨u, p, d, q, rfl⟩ : ∃ (u : Fin 1) (p : Fin 32) (d : Fin 12) (q : Fin 512), j = ix4 u p d q :=
    ⟨j 0, j 1, j 2, j 3, eq_ix4 (n0 := 1) (n1 := 32) (n2 := 12) (n3 := 512) j⟩
  show blockFn (iblk m c 0 t) (iblk m c 1 t) (ix4 u p d q)
    = flatCost (V m c main_v0) (V m c main_v1) (((cfg0.win 2).blk t).view.emb (ix4 u p d q))
  have hu : u.val = 0 := by omega
  have hemb : ((cfg0.win 2).blk t).view.emb (ix4 u p d q)
      = ix4 (⟨win0_2.index t (0 : Fin 4), b0⟩ : Fin 8)
          (⟨32 * (⟨win0_2.index t (1 : Fin 4), b1⟩ : Fin 8).val + p.val, by omega⟩ : Fin 256) d q := by
    funext a; apply Fin.ext
    match a with
    | ⟨0, _⟩ => show win0_2.index t (0 : Fin 4) * 1 + 1 * u.val = win0_2.index t (0 : Fin 4); omega
    | ⟨1, _⟩ => show win0_2.index t (1 : Fin 4) * 32 + 1 * p.val = 32 * win0_2.index t (1 : Fin 4) + p.val; omega
    | ⟨2, _⟩ => show win0_2.index t (2 : Fin 4) * 12 + 1 * d.val = d.val; omega
    | ⟨3, _⟩ => show win0_2.index t (3 : Fin 4) * 512 + 1 * q.val = q.val; omega
  rw [hemb]
  refine blockFn_rows _ _ _ _ ⟨win0_2.index t (0 : Fin 4), b0⟩ ⟨win0_2.index t (1 : Fin 4), b1⟩ ?_ ?_ u p d q
  · intro p' k
    show V m c main_v0 (((cfg0.win 0).blk t).view.emb (ix3 (0 : Fin 1) p' k)) = V m c main_v0 _
    refine congrArg _ (funext fun a => Fin.ext ?_)
    match a with
    | ⟨0, _⟩ => show win0_0.index t (0 : Fin 3) * 1 + 1 * 0 = win0_2.index t (0 : Fin 4); omega
    | ⟨1, _⟩ => show win0_0.index t (1 : Fin 3) * 32 + 1 * p'.val = 32 * win0_2.index t (1 : Fin 4) + p'.val; omega
    | ⟨2, _⟩ => show win0_0.index t (2 : Fin 3) * 16384 + 1 * k.val = k.val; omega
  · intro p' k
    show V m c main_v1 (((cfg0.win 1).blk t).view.emb (ix3 (0 : Fin 1) p' k)) = V m c main_v1 _
    refine congrArg _ (funext fun a => Fin.ext ?_)
    match a with
    | ⟨0, _⟩ => show win0_1.index t (0 : Fin 3) * 1 + 1 * 0 = win0_2.index t (0 : Fin 4); omega
    | ⟨1, _⟩ => show win0_1.index t (1 : Fin 3) * 32 + 1 * p'.val = 32 * win0_2.index t (1 : Fin 4) + p'.val; omega
    | ⟨2, _⟩ => show win0_1.index t (2 : Fin 3) * 16384 + 1 * k.val = k.val; omega

/-- An index of the output array is in point t's block iff each coordinate is in the block's range on its axis. -/
theorem mem_blk (t : Fin cfg0.N) (i : S8x256x12x512.Idx) :
    i ∈ ((cfg0.win 2).blk t).view.set ↔ ∀ a : Fin 4, win0_2.index t a * S1x32x12x512.size a ≤ (i a).val
      ∧ (i a).val < win0_2.index t a * S1x32x12x512.size a + S1x32x12x512.size a := by
  show i ∈ ((View.whole main_v2).slice (win0_2.rect t)).set ↔ _
  rw [View.set_slice_whole, Rect.mem_set_unit]
  exact Iff.rfl

/-- The 64 blocks cover the output array: index (b, h, d, w) is in the block of point (b, h / 32). -/
theorem covered (i : S8x256x12x512.Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 12 := (i 2).isLt
  have hi3 : (i 3).val < 512 := (i 3).isLt
  obtain ⟨t, ht⟩ := idx_onto ⟨(i 0).val, by omega⟩ ⟨(i 1).val / 32, by omega⟩
  have q0 : win0_2.index t (0 : Fin 4) = (i 0).val := congrFun ht 0
  have q1 : win0_2.index t (1 : Fin 4) = (i 1).val / 32 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ =>
    show win0_2.index t (0 : Fin 4) * 1 ≤ (i 0).val ∧ (i 0).val < win0_2.index t (0 : Fin 4) * 1 + 1; omega
  | ⟨1, _⟩ =>
    show win0_2.index t (1 : Fin 4) * 32 ≤ (i 1).val ∧ (i 1).val < win0_2.index t (1 : Fin 4) * 32 + 32; omega
  | ⟨2, _⟩ =>
    show win0_2.index t (2 : Fin 4) * 12 ≤ (i 2).val ∧ (i 2).val < win0_2.index t (2 : Fin 4) * 12 + 12; omega
  | ⟨3, _⟩ =>
    show win0_2.index t (3 : Fin 4) * 512 ≤ (i 3).val ∧ (i 3).val < win0_2.index t (3 : Fin 4) * 512 + 512; omega

/-- The output array after the region: the cost of the flattened inputs as the region finds them. -/
theorem final (c : Dev nD) : (dats m 0 c).arrAt 2 cfg0.N = flatCost (V m c main_v0) (V m c main_v1) :=
  (dats m 0 c).arrAt_eq_of_cover 2 _ (fun t _ => flushed_eq m c t) covered

end Cert.CostVolume

end
-- ==== Proof.Spec.lean ====
/-
  The cost volume, as one function of the two feature maps.

  Left and right feature maps are [8, 256, 512, 32]: batch, row, pixel, channel. For a disparity d < 12 the cost
  of pixel w of row h of batch entry b is the L1 distance over the 32 channels between the left pixel w and the
  right pixel w − d, the right pixel read as zero where w < d (the right map shifted d pixels to the right, its
  first d pixels filled with zeros). The result is [8, 256, 512, 12]: batch, row, pixel, disparity.
-/
import Idealize.ShloMosaic.Lib.ValueIdx
import Idealize.ShloMosaic.PureOps.Ideal

noncomputable section

namespace Cert.CostVolume

open Idealize.ShloMosaic Idealize.ShloMosaic.ValueIdx

/-- A feature map: batch × row × pixel × channel. -/
abbrev SImg : Shape := ⟨4, ![8, 256, 512, 32]⟩
/-- The cost volume: batch × row × pixel × disparity. -/
abbrev SVol : Shape := ⟨4, ![8, 256, 512, 12]⟩

/-- The cost of disparity d at pixel (b, h, w): Σ_c |a0[b, h, w, c] − a1[b, h, w − d, c]|, the right pixel zero
    when w < d. -/
def costEntry (d : ℕ) (a0 a1 : FVec Ideal SImg .f32) (b : Fin 8) (h : Fin 256) (w : Fin 512) : Ideal .f32 :=
  ∑ c : Fin 32, FloatOps.absf
    (a0 (ix4 b h w c) - (if d ≤ w.val then a1 (ix4 b h (⟨w.val - d, by omega⟩ : Fin 512) c) else 0))

/-- The cost volume of two feature maps. -/
def costVolume (a0 a1 : FVec Ideal SImg .f32) : SVol.Idx → Ideal .f32 := fun i =>
  costEntry (i 3).val a0 a1 ⟨(i 0).val, (i 0).isLt⟩ ⟨(i 1).val, (i 1).isLt⟩ ⟨(i 2).val, (i 2).isLt⟩

end Cert.CostVolume

end
-- ==== Proof.KernelRun.lean ====
/-
  The kernel's run, read: @main flattens the two feature maps' last two axes, runs the region, and transposes the
  region's output [8, 256, 12, 512] to [8, 256, 512, 12]. Lane 32·w + c of a flattened row is channel c of pixel
  w, so the region's cost of the flattened maps is the cost volume with its last two axes exchanged, and the
  transpose puts them back.
-/
import proofs.«142062_j22531398435045_2_alg».proof.Proof.Gen.KernelIdeal.Frame
import proofs.«142062_j22531398435045_2_alg».proof.Proof.Array
import proofs.«142062_j22531398435045_2_alg».proof.Proof.Spec
import Idealize.ShloMosaic.Lib.StableHlo.Run
import Idealize.ShloMosaic.Lib.Pipeline.Value

set_option maxRecDepth 16384

noncomputable section

namespace Cert.CostVolume

open Idealize.ShloMosaic Idealize.ShloMosaic.ValueIdx Idealize.ShloMosaic.TcCoe Idealize.SL.Sem
open Idealize.ShloMosaic.StableHlo
open Cert.KernelIdeal Cert.KernelIdeal.Gen

/-- The region's cost of two flattened feature maps, at (b, h, d, w), is the cost of disparity d at pixel (b, h, w). -/
theorem flatCost_flatten (a0 a1 : FVec Ideal S8x256x512x32 .f32) (hc : S8x256x512x32.ShapeCasts S8x256x16384)
    (b : Fin 8) (h : Fin 256) (d : Fin 12) (w : Fin 512) :
    flatCost (shapeCast S8x256x16384 a0 hc) (shapeCast S8x256x16384 a1 hc) (ix4 b h d w)
      = costEntry d.val a0 a1 b h w := by
  unfold flatCost costEntry
  refine Finset.sum_congr rfl fun c _ => ?_
  have hcl : c.val < 32 := c.isLt
  have hw : w.val < 512 := w.isLt
  have e0 : shapeCast S8x256x16384 a0 hc (ix3 b h (lane w c)) = a0 (ix4 b h w c) :=
    shapeCast_apply a0 hc _ _ (by
      rw [Shape.rowMajor_val_four, Shape.rowMajor_val_three]
      show ((b.val * 256 + h.val) * 512 + w.val) * 32 + c.val = (b.val * 256 + h.val) * 16384 + (32 * w.val + c.val)
      omega)
  have e1 : shapeCast S8x256x16384 a1 hc (ix3 b h (laneBack d.val w c))
      = a1 (ix4 b h (⟨w.val - d.val, by omega⟩ : Fin 512) c) :=
    shapeCast_apply a1 hc _ _ (by
      rw [Shape.rowMajor_val_four, Shape.rowMajor_val_three]
      show ((b.val * 256 + h.val) * 512 + (w.val - d.val)) * 32 + c.val
        = (b.val * 256 + h.val) * 16384 + (32 * (w.val - d.val) + c.val)
      omega)
  show FloatOps.absf (shapeCast S8x256x16384 a0 hc (ix3 b h (lane w c))
      - (if d.val ≤ w.val then shapeCast S8x256x16384 a1 hc (ix3 b h (laneBack d.val w c)) else 0)) = _
  rw [e0, e1]

variable (m : (ℓ : Loc nD τ sig) → Buf (Elt Ideal) ℓ)

/-- The region finds the first flattened map: the left feature map with its last two axes flattened. -/
theorem V_flat0 (c : Dev nD) : (V m c main_v0 : S8x256x16384.Idx → Ideal .f32)
    = shapeCast S8x256x16384 (m ((c : Thread nD τ).loc main_arg0)) shapeCasts_S8x256x512x32_S8x256x16384 := by
  show StableHlo.after hostOps0 (fun b => m (c, b)) (Proc.devRef .tc main_v0) = _
  after_results
  rfl

theorem V_flat1 (c : Dev nD) : (V m c main_v1 : S8x256x16384.Idx → Ideal .f32)
    = shapeCast S8x256x16384 (m ((c : Thread nD τ).loc main_arg1)) shapeCasts_S8x256x512x32_S8x256x16384 := by
  show StableHlo.after hostOps0 (fun b => m (c, b)) (Proc.devRef .tc main_v1) = _
  after_results
  rfl

/-- @main's result after the lines that follow the region: the cost volume of the two feature maps. -/
theorem tail_eq (c : Dev nD) :
    Pipeline.afterTail₀ cfgs (dats m) 0 (V0 m) [hostOps1] c main_v3
      = costVolume (m ((c : Thread nD τ).loc main_arg0)) (m ((c : Thread nD τ).loc main_arg1)) := by
  unfold Pipeline.afterTail₀
  show StableHlo.after hostOps1 _ (Proc.devRef .tc main_v3) = _
  after_results
  have hv2 : Pipeline.withArrays (cfgs 0).spec c (V0 m c) (fun w => (dats m 0 c).arrAt w (cfgs 0).N)
      (Proc.devRef .tc main_v2) = flatCost (V m c main_v0) (V m c main_v1) :=
    (Pipeline.withArrays_arr spec0 launch0.win.arr_inj c _ _ 2).trans (final m c)
  rw [hv2, V_flat0, V_flat1]
  funext i
  obtain ⟨b, h, w, d, rfl⟩ : ∃ (b : Fin 8) (h : Fin 256) (w : Fin 512) (d : Fin 12), i = ix4 b h w d :=
    ⟨i 0, i 1, i 2, i 3, eq_ix4 (n0 := 8) (n1 := 256) (n2 := 512) (n3 := 12) i⟩
  refine (transpose_apply [0, 1, 3, 2] _ _ (ix4 b h w d) (ix4 b h d w) (fun a => match a with
    | ⟨0, _⟩ => rfl | ⟨1, _⟩ => rfl | ⟨2, _⟩ => rfl | ⟨3, _⟩ => rfl)).trans ?_
  exact flatCost_flatten _ _ _ b h d w

/-- **The kernel's run**: every weakly fair execution of @main terminates with the result array at the cost volume
    of the two feature maps, and the feature maps as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v3)
        = costVolume (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.CostVolume

end
-- ==== Proof.RefPlane.lean ====
/-
  One disparity's plane as the host program computes it.

  The reference shifts the right feature map d pixels to the right by padding d zero pixels in front of the pixel
  axis (513 … 523 pixels) and keeping the first 512: pixel w of the result is pixel w − d of the map for w ≥ d and
  the padding value for w < d. It then subtracts, takes absolute values, sums the channel axis from the initial
  value zero, and gives the sum a last axis of extent one so that the twelve planes can be joined along it.
-/
import proofs.«142062_j22531398435045_2_alg».proof.Proof.Spec
import Idealize.ShloMosaic.Lib.KernelVsHost
import Idealize.ShloMosaic.Lib.Pipeline.Value
import Idealize.ShloMosaic.PureOps.Ideal.Laws

noncomputable section

namespace Cert.CostVolume

open Idealize.ShloMosaic Idealize.ShloMosaic.ValueIdx

/-- One cost per pixel. -/
abbrev SSum : Shape := ⟨3, ![8, 256, 512]⟩
/-- The same with a last axis of extent one. -/
abbrev SCol : Shape := ⟨4, ![8, 256, 512, 1]⟩
/-- A scalar operand. -/
abbrev SNil : Shape := ⟨0, ![]⟩

/-- The channel sum from a zero initial value, with its unit last axis, read at (b, h, w, ·): the sum over the
    channels of the summand at (b, h, w, c). -/
theorem sumCol_apply (y : FVec Ideal SImg .f32) (init : FVec Ideal SNil .f32) (hu : 0 < SNil.numel)
    (hinit : init (Shape.Idx.first hu) = 0) (hr : SImg.ReducesTo [3] SSum) (hb : SSum.BroadcastsInDim SCol ![0, 1, 2])
    (b : Fin 8) (h : Fin 256) (w : Fin 512) (z : Fin 1) :
    broadcastInDim SCol ![0, 1, 2] hb (Host.reduceAdd (F := Ideal) y init hr hu) (ix4 b h w z)
      = ∑ c : Fin 32, y (ix4 b h w c) := by
  refine (broadcastInDim_apply _ hb _ (ix4 b h w z) (ix3 b h w) (fun a => match a with
    | ⟨0, _⟩ => by show b.val = if (8 : Nat) = 1 then 0 else b.val; rw [if_neg (by decide)]
    | ⟨1, _⟩ => by show h.val = if (256 : Nat) = 1 then 0 else h.val; rw [if_neg (by decide)]
    | ⟨2, _⟩ => by show w.val = if (512 : Nat) = 1 then 0 else w.val; rw [if_neg (by decide)])).trans ?_
  have hred : SImg.Reduces [3] SSum := by decide
  show Ideal.hostReduceAdd hr y (init (Shape.Idx.first hu)) (ix3 b h w) = _
  rw [Ideal.hostReduceAdd_single hr hred, hinit, zero_add]
  refine Finset.sum_congr rfl fun (c : Fin 32) _ => ?_
  exact congrArg y (funext fun a => Fin.ext (by
    match a with | ⟨0, _⟩ => rfl | ⟨1, _⟩ => rfl | ⟨2, _⟩ => rfl | ⟨3, _⟩ => rfl))

/-- The right map padded with d pixels of the value v in front of the pixel axis and cut back to 512 pixels, read
    at (b, h, w, c): pixel w − d of the map when w ≥ d, the padding value otherwise. -/
theorem shifted_apply (n d : ℕ) (hn : n = 512 + d) (a1 : FVec Ideal SImg .f32) (v : FVec Ideal SNil .f32)
    (hu : 0 < SNil.numel)
    (hp : SImg.Pads ![0, 0, d, 0] ![0, 0, 0, 0] ![0, 0, 0, 0] ⟨4, ![8, 256, n, 32]⟩)
    (hs : (⟨4, ![8, 256, n, 32]⟩ : Shape).Slices ![0, 0, 0, 0] SImg)
    (b : Fin 8) (h : Fin 256) (w : Fin 512) (c : Fin 32) :
    extractStridedSlice SImg ![0, 0, 0, 0]
        (pad ⟨4, ![8, 256, n, 32]⟩ ![0, 0, d, 0] ![0, 0, 0, 0] ![0, 0, 0, 0] a1 v hp hu) hs (ix4 b h w c)
      = if d ≤ w.val then a1 (ix4 b h (⟨w.val - d, by omega⟩ : Fin 512) c) else v (Shape.Idx.first hu) := by
  subst hn
  have hw : w.val < 512 := w.isLt
  refine (extractStridedSlice_apply ![0, 0, 0, 0] _ hs (ix4 b h w c)
    (ix4 b h (⟨w.val, by omega⟩ : Fin (512 + d)) c) (fun a => match a with
      | ⟨0, _⟩ => by show b.val = 0 + b.val; omega
      | ⟨1, _⟩ => by show h.val = 0 + h.val; omega
      | ⟨2, _⟩ => by show w.val = 0 + w.val; omega
      | ⟨3, _⟩ => by show c.val = 0 + c.val; omega)).trans ?_
  by_cases hdw : d ≤ w.val
  · rw [if_pos hdw]
    refine pad_apply_of_inside _ _ _ a1 v hp hu _ (ix4 b h (⟨w.val - d, by omega⟩ : Fin 512) c) (fun a => match a with
      | ⟨0, _⟩ => by show b.val = 0 + b.val * (0 + 1); omega
      | ⟨1, _⟩ => by show h.val = 0 + h.val * (0 + 1); omega
      | ⟨2, _⟩ => by show w.val = d + (w.val - d) * (0 + 1); omega
      | ⟨3, _⟩ => by show c.val = 0 + c.val * (0 + 1); omega)
  · rw [if_neg hdw]
    exact pad_apply_of_not_inside _ _ _ a1 v hp hu _ (2 : Fin 4) (fun hh => hdw hh.1)

/-- **A shifted plane of the reference** at (b, h, w, ·): the cost of disparity d at pixel (b, h, w). -/
theorem refPlane_apply (n d : ℕ) (hn : n = 512 + d) (a0 a1 : FVec Ideal SImg .f32)
    (v init : FVec Ideal SNil .f32) (hu : 0 < SNil.numel)
    (hv : v (Shape.Idx.first hu) = 0) (hinit : init (Shape.Idx.first hu) = 0)
    (hp : SImg.Pads ![0, 0, d, 0] ![0, 0, 0, 0] ![0, 0, 0, 0] ⟨4, ![8, 256, n, 32]⟩)
    (hs : (⟨4, ![8, 256, n, 32]⟩ : Shape).Slices ![0, 0, 0, 0] SImg)
    (hr : SImg.ReducesTo [3] SSum) (hb : SSum.BroadcastsInDim SCol ![0, 1, 2])
    (b : Fin 8) (h : Fin 256) (w : Fin 512) (z : Fin 1) :
    broadcastInDim SCol ![0, 1, 2] hb
        (Host.reduceAdd (F := Ideal)
          (Host.absf (subf a0 (extractStridedSlice SImg ![0, 0, 0, 0]
            (pad ⟨4, ![8, 256, n, 32]⟩ ![0, 0, d, 0] ![0, 0, 0, 0] ![0, 0, 0, 0] a1 v hp hu) hs)))
          init hr hu) (ix4 b h w z)
      = costEntry d a0 a1 b h w := by
  rw [sumCol_apply _ init hu hinit hr hb b h w z]
  unfold costEntry
  refine Finset.sum_congr rfl fun (c : Fin 32) _ => ?_
  show FloatOps.absf (a0 (ix4 b h w c) - extractStridedSlice SImg ![0, 0, 0, 0]
      (pad ⟨4, ![8, 256, n, 32]⟩ ![0, 0, d, 0] ![0, 0, 0, 0] ![0, 0, 0, 0] a1 v hp hu) hs (ix4 b h w c)) = _
  rw [shifted_apply n d hn a1 v hu hp hs b h w c, hv]

/-- **The unshifted plane of the reference** (disparity 0: a pad of no pixels and no cut) at (b, h, w, ·). -/
theorem refPlane0_apply (a0 a1 : FVec Ideal SImg .f32) (v init : FVec Ideal SNil .f32) (hu : 0 < SNil.numel)
    (hinit : init (Shape.Idx.first hu) = 0)
    (hp : SImg.Pads ![0, 0, 0, 0] ![0, 0, 0, 0] ![0, 0, 0, 0] SImg)
    (hr : SImg.ReducesTo [3] SSum) (hb : SSum.BroadcastsInDim SCol ![0, 1, 2])
    (b : Fin 8) (h : Fin 256) (w : Fin 512) (z : Fin 1) :
    broadcastInDim SCol ![0, 1, 2] hb
        (Host.reduceAdd (F := Ideal)
          (Host.absf (subf a0 (pad SImg ![0, 0, 0, 0] ![0, 0, 0, 0] ![0, 0, 0, 0] a1 v hp hu))) init hr hu)
        (ix4 b h w z)
      = costEntry 0 a0 a1 b h w := by
  rw [sumCol_apply _ init hu hinit hr hb b h w z]
  unfold costEntry
  refine Finset.sum_congr rfl fun (c : Fin 32) _ => ?_
  show FloatOps.absf (a0 (ix4 b h w c)
      - pad SImg ![0, 0, 0, 0] ![0, 0, 0, 0] ![0, 0, 0, 0] a1 v hp hu (ix4 b h w c)) = _
  rw [if_pos (Nat.zero_le _)]
  refine congrArg (fun t => FloatOps.absf (a0 (ix4 b h w c) - t)) ?_
  refine pad_apply_of_inside _ _ _ a1 v hp hu _ (ix4 b h (⟨w.val - 0, by omega⟩ : Fin 512) c) (fun a => match a with
    | ⟨0, _⟩ => by show b.val = 0 + b.val * (0 + 1); omega
    | ⟨1, _⟩ => by show h.val = 0 + h.val * (0 + 1); omega
    | ⟨2, _⟩ => by show w.val = 0 + (w.val - 0) * (0 + 1); omega
    | ⟨3, _⟩ => by show c.val = 0 + c.val * (0 + 1); omega)

end Cert.CostVolume

end
-- ==== Proof.Reference.lean ====
/-
  The reference's result is the cost volume.

  The host program computes the twelve disparities' planes one after the other — the right map shifted by a pad
  and a cut, the absolute difference, the channel sum — and joins them along a new last axis. The pad value is the
  integer zero converted to a float, the sum's initial value the float zero: both are the real zero. Entry
  (b, h, w, d) of the joined array is entry (b, h, w, ·) of plane d.
-/
import proofs.«142062_j22531398435045_2_alg».proof.Proof.Gen.ReferenceIdeal.Run
import proofs.«142062_j22531398435045_2_alg».proof.Proof.Gen.ReferenceIdeal.Read
import proofs.«142062_j22531398435045_2_alg».proof.Proof.RefPlane

set_option maxRecDepth 16384

noncomputable section

namespace Cert.CostVolume.Ref

open Idealize.ShloMosaic Idealize.ShloMosaic.ValueIdx Idealize.ShloMosaic.TcCoe Idealize.SL.Sem
open Cert.CostVolume Cert.ReferenceIdeal Cert.ReferenceIdeal.Gen Cert.ReferenceIdeal.Read

/-- A scalar that is the integer zero converted to a float is the real zero. -/
theorem pad_zero (v : FVec Ideal S_ .f32) (hv : v = sitofp .f32 (constantI S_ 32 0#32)) :
    v (Shape.Idx.first h_S_) = 0 := by
  subst hv
  exact sitofp_zero

/-- A scalar that is the float constant zero is the real zero. -/
theorem init_zero (v : FVec Ideal S_ .f32) (hv : v = constant (F := Ideal) S_ .f32 0x00000000#32) :
    v (Shape.Idx.first h_S_) = 0 := by
  subst hv
  exact Ideal.ofBits_zero_f32

/-! ## The twelve planes -/

theorem plane0 (x0 x1 : FVec Ideal SImg .f32) (b : Fin 8) (h : Fin 256) (w : Fin 512) (z : Fin 1) :
    val_main_v59 (F := Ideal) x0 x1 (ix4 b h w z) = costEntry 0 x0 x1 b h w := by
  unfold val_main_v59 val_main_v3 val_main_v2 val_main_v1 val_main_v0
  exact refPlane0_apply x0 x1 _ _ h_S_ (init_zero _ rfl) _ _ _ b h w z

theorem plane1 (x0 x1 : FVec Ideal SImg .f32) (b : Fin 8) (h : Fin 256) (w : Fin 512) (z : Fin 1) :
    val_main_v60 (F := Ideal) x0 x1 (ix4 b h w z) = costEntry 1 x0 x1 b h w := by
  unfold val_main_v60 val_main_v8 val_main_v7 val_main_v6 val_main_v5 val_main_v4
  exact refPlane_apply 513 1 rfl x0 x1 _ _ h_S_ (pad_zero _ rfl) (init_zero _ rfl) _ _ _ _ b h w z

theorem plane2 (x0 x1 : FVec Ideal SImg .f32) (b : Fin 8) (h : Fin 256) (w : Fin 512) (z : Fin 1) :
    val_main_v61 (F := Ideal) x0 x1 (ix4 b h w z) = costEntry 2 x0 x1 b h w := by
  unfold val_main_v61 val_main_v13 val_main_v12 val_main_v11 val_main_v10 val_main_v9
  exact refPlane_apply 514 2 rfl x0 x1 _ _ h_S_ (pad_zero _ rfl) (init_zero _ rfl) _ _ _ _ b h w z

theorem plane3 (x0 x1 : FVec Ideal SImg .f32) (b : Fin 8) (h : Fin 256) (w : Fin 512) (z : Fin 1) :
    val_main_v62 (F := Ideal) x0 x1 (ix4 b h w z) = costEntry 3 x0 x1 b h w := by
  unfold val_main_v62 val_main_v18 val_main_v17 val_main_v16 val_main_v15 val_main_v14
  exact refPlane_apply 515 3 rfl x0 x1 _ _ h_S_ (pad_zero _ rfl) (init_zero _ rfl) _ _ _ _ b h w z

theorem plane4 (x0 x1 : FVec Ideal SImg .f32) (b : Fin 8) (h : Fin 256) (w : Fin 512) (z : Fin 1) :
    val_main_v63 (F := Ideal) x0 x1 (ix4 b h w z) = costEntry 4 x0 x1 b h w := by
  unfold val_main_v63 val_main_v23 val_main_v22 val_main_v21 val_main_v20 val_main_v19
  exact refPlane_apply 516 4 rfl x0 x1 _ _ h_S_ (pad_zero _ rfl) (init_zero _ rfl) _ _ _ _ b h w z

theorem plane5 (x0 x1 : FVec Ideal SImg .f32) (b : Fin 8) (h : Fin 256) (w : Fin 512) (z : Fin 1) :
    val_main_v64 (F := Ideal) x0 x1 (ix4 b h w z) = costEntry 5 x0 x1 b h w := by
  unfold val_main_v64 val_main_v28 val_main_v27 val_main_v26 val_main_v25 val_main_v24
  exact refPlane_apply 517 5 rfl x0 x1 _ _ h_S_ (pad_zero _ rfl) (init_zero _ rfl) _ _ _ _ b h w z

theorem plane6 (x0 x1 : FVec Ideal SImg .f32) (b : Fin 8) (h : Fin 256) (w : Fin 512) (z : Fin 1) :
    val_main_v65 (F := Ideal) x0 x1 (ix4 b h w z) = costEntry 6 x0 x1 b h w := by
  unfold val_main_v65 val_main_v33 val_main_v32 val_main_v31 val_main_v30 val_main_v29
  exact refPlane_apply 518 6 rfl x0 x1 _ _ h_S_ (pad_zero _ rfl) (init_zero _ rfl) _ _ _ _ b h w z

theorem plane7 (x0 x1 : FVec Ideal SImg .f32) (b : Fin 8) (h : Fin 256) (w : Fin 512) (z : Fin 1) :
    val_main_v66 (F := Ideal) x0 x1 (ix4 b h w z) = costEntry 7 x0 x1 b h w := by
  unfold val_main_v66 val_main_v38 val_main_v37 val_main_v36 val_main_v35 val_main_v34
  exact refPlane_apply 519 7 rfl x0 x1 _ _ h_S_ (pad_zero _ rfl) (init_zero _ rfl) _ _ _ _ b h w z

theorem plane8 (x0 x1 : FVec Ideal SImg .f32) (b : Fin 8) (h : Fin 256) (w : Fin 512) (z : Fin 1) :
    val_main_v67 (F := Ideal) x0 x1 (ix4 b h w z) = costEntry 8 x0 x1 b h w := by
  unfold val_main_v67 val_main_v43 val_main_v42 val_main_v41 val_main_v40 val_main_v39
  exact refPlane_apply 520 8 rfl x0 x1 _ _ h_S_ (pad_zero _ rfl) (init_zero _ rfl) _ _ _ _ b h w z

theorem plane9 (x0 x1 : FVec Ideal SImg .f32) (b : Fin 8) (h : Fin 256) (w : Fin 512) (z : Fin 1) :
    val_main_v68 (F := Ideal) x0 x1 (ix4 b h w z) = costEntry 9 x0 x1 b h w := by
  unfold val_main_v68 val_main_v48 val_main_v47 val_main_v46 val_main_v45 val_main_v44
  exact refPlane_apply 521 9 rfl x0 x1 _ _ h_S_ (pad_zero _ rfl) (init_zero _ rfl) _ _ _ _ b h w z

theorem plane10 (x0 x1 : FVec Ideal SImg .f32) (b : Fin 8) (h : Fin 256) (w : Fin 512) (z : Fin 1) :
    val_main_v69 (F := Ideal) x0 x1 (ix4 b h w z) = costEntry 10 x0 x1 b h w := by
  unfold val_main_v69 val_main_v53 val_main_v52 val_main_v51 val_main_v50 val_main_v49
  exact refPlane_apply 522 10 rfl x0 x1 _ _ h_S_ (pad_zero _ rfl) (init_zero _ rfl) _ _ _ _ b h w z

theorem plane11 (x0 x1 : FVec Ideal SImg .f32) (b : Fin 8) (h : Fin 256) (w : Fin 512) (z : Fin 1) :
    val_main_v70 (F := Ideal) x0 x1 (ix4 b h w z) = costEntry 11 x0 x1 b h w := by
  unfold val_main_v70 val_main_v58 val_main_v57 val_main_v56 val_main_v55 val_main_v54
  exact refPlane_apply 523 11 rfl x0 x1 _ _ h_S_ (pad_zero _ rfl) (init_zero _ rfl) _ _ _ _ b h w z

/-! ## The joined array at each disparity -/

theorem result_at0 (x0 x1 : FVec Ideal SImg .f32) (b : Fin 8) (h : Fin 256) (w : Fin 512) :
    val_main_v71 (F := Ideal) x0 x1 (ix4 b h w (⟨0, by omega⟩ : Fin 12)) = costEntry 0 x0 x1 b h w := by
  unfold val_main_v71
  refine (concatenate_apply_piece _ _ _ (ix4 b h w (⟨0, by omega⟩ : Fin 12)) 0 (by show (0 : ℕ) < 12; omega) S8x256x512x1
    (val_main_v59 (F := Ideal) x0 x1) rfl rfl 0 (by rfl) (ix4 b h w (0 : Fin 1)) (fun a => match a with
      | ⟨0, _⟩ => fun _ => rfl
      | ⟨1, _⟩ => fun _ => rfl
      | ⟨2, _⟩ => fun _ => rfl
      | ⟨3, _⟩ => fun hne => absurd rfl hne) rfl).trans ?_
  exact plane0 x0 x1 b h w 0

theorem result_at1 (x0 x1 : FVec Ideal SImg .f32) (b : Fin 8) (h : Fin 256) (w : Fin 512) :
    val_main_v71 (F := Ideal) x0 x1 (ix4 b h w (⟨1, by omega⟩ : Fin 12)) = costEntry 1 x0 x1 b h w := by
  unfold val_main_v71
  refine (concatenate_apply_piece _ _ _ (ix4 b h w (⟨1, by omega⟩ : Fin 12)) 1 (by show (1 : ℕ) < 12; omega) S8x256x512x1
    (val_main_v60 (F := Ideal) x0 x1) rfl rfl 1 (by rfl) (ix4 b h w (0 : Fin 1)) (fun a => match a with
      | ⟨0, _⟩ => fun _ => rfl
      | ⟨1, _⟩ => fun _ => rfl
      | ⟨2, _⟩ => fun _ => rfl
      | ⟨3, _⟩ => fun hne => absurd rfl hne) rfl).trans ?_
  exact plane1 x0 x1 b h w 0

theorem result_at2 (x0 x1 : FVec Ideal SImg .f32) (b : Fin 8) (h : Fin 256) (w : Fin 512) :
    val_main_v71 (F := Ideal) x0 x1 (ix4 b h w (⟨2, by omega⟩ : Fin 12)) = costEntry 2 x0 x1 b h w := by
  unfold val_main_v71
  refine (concatenate_apply_piece _ _ _ (ix4 b h w (⟨2, by omega⟩ : Fin 12)) 2 (by show (2 : ℕ) < 12; omega) S8x256x512x1
    (val_main_v61 (F := Ideal) x0 x1) rfl rfl 2 (by rfl) (ix4 b h w (0 : Fin 1)) (fun a => match a with
      | ⟨0, _⟩ => fun _ => rfl
      | ⟨1, _⟩ => fun _ => rfl
      | ⟨2, _⟩ => fun _ => rfl
      | ⟨3, _⟩ => fun hne => absurd rfl hne) rfl).trans ?_
  exact plane2 x0 x1 b h w 0

theorem result_at3 (x0 x1 : FVec Ideal SImg .f32) (b : Fin 8) (h : Fin 256) (w : Fin 512) :
    val_main_v71 (F := Ideal) x0 x1 (ix4 b h w (⟨3, by omega⟩ : Fin 12)) = costEntry 3 x0 x1 b h w := by
  unfold val_main_v71
  refine (concatenate_apply_piece _ _ _ (ix4 b h w (⟨3, by omega⟩ : Fin 12)) 3 (by show (3 : ℕ) < 12; omega) S8x256x512x1
    (val_main_v62 (F := Ideal) x0 x1) rfl rfl 3 (by rfl) (ix4 b h w (0 : Fin 1)) (fun a => match a with
      | ⟨0, _⟩ => fun _ => rfl
      | ⟨1, _⟩ => fun _ => rfl
      | ⟨2, _⟩ => fun _ => rfl
      | ⟨3, _⟩ => fun hne => absurd rfl hne) rfl).trans ?_
  exact plane3 x0 x1 b h w 0

theorem result_at4 (x0 x1 : FVec Ideal SImg .f32) (b : Fin 8) (h : Fin 256) (w : Fin 512) :
    val_main_v71 (F := Ideal) x0 x1 (ix4 b h w (⟨4, by omega⟩ : Fin 12)) = costEntry 4 x0 x1 b h w := by
  unfold val_main_v71
  refine (concatenate_apply_piece _ _ _ (ix4 b h w (⟨4, by omega⟩ : Fin 12)) 4 (by show (4 : ℕ) < 12; omega) S8x256x512x1
    (val_main_v63 (F := Ideal) x0 x1) rfl rfl 4 (by rfl) (ix4 b h w (0 : Fin 1)) (fun a => match a with
      | ⟨0, _⟩ => fun _ => rfl
      | ⟨1, _⟩ => fun _ => rfl
      | ⟨2, _⟩ => fun _ => rfl
      | ⟨3, _⟩ => fun hne => absurd rfl hne) rfl).trans ?_
  exact plane4 x0 x1 b h w 0

theorem result_at5 (x0 x1 : FVec Ideal SImg .f32) (b : Fin 8) (h : Fin 256) (w : Fin 512) :
    val_main_v71 (F := Ideal) x0 x1 (ix4 b h w (⟨5, by omega⟩ : Fin 12)) = costEntry 5 x0 x1 b h w := by
  unfold val_main_v71
  refine (concatenate_apply_piece _ _ _ (ix4 b h w (⟨5, by omega⟩ : Fin 12)) 5 (by show (5 : ℕ) < 12; omega) S8x256x512x1
    (val_main_v64 (F := Ideal) x0 x1) rfl rfl 5 (by rfl) (ix4 b h w (0 : Fin 1)) (fun a => match a with
      | ⟨0, _⟩ => fun _ => rfl
      | ⟨1, _⟩ => fun _ => rfl
      | ⟨2, _⟩ => fun _ => rfl
      | ⟨3, _⟩ => fun hne => absurd rfl hne) rfl).trans ?_
  exact plane5 x0 x1 b h w 0

theorem result_at6 (x0 x1 : FVec Ideal SImg .f32) (b : Fin 8) (h : Fin 256) (w : Fin 512) :
    val_main_v71 (F := Ideal) x0 x1 (ix4 b h w (⟨6, by omega⟩ : Fin 12)) = costEntry 6 x0 x1 b h w := by
  unfold val_main_v71
  refine (concatenate_apply_piece _ _ _ (ix4 b h w (⟨6, by omega⟩ : Fin 12)) 6 (by show (6 : ℕ) < 12; omega) S8x256x512x1
    (val_main_v65 (F := Ideal) x0 x1) rfl rfl 6 (by rfl) (ix4 b h w (0 : Fin 1)) (fun a => match a with
      | ⟨0, _⟩ => fun _ => rfl
      | ⟨1, _⟩ => fun _ => rfl
      | ⟨2, _⟩ => fun _ => rfl
      | ⟨3, _⟩ => fun hne => absurd rfl hne) rfl).trans ?_
  exact plane6 x0 x1 b h w 0

theorem result_at7 (x0 x1 : FVec Ideal SImg .f32) (b : Fin 8) (h : Fin 256) (w : Fin 512) :
    val_main_v71 (F := Ideal) x0 x1 (ix4 b h w (⟨7, by omega⟩ : Fin 12)) = costEntry 7 x0 x1 b h w := by
  unfold val_main_v71
  refine (concatenate_apply_piece _ _ _ (ix4 b h w (⟨7, by omega⟩ : Fin 12)) 7 (by show (7 : ℕ) < 12; omega) S8x256x512x1
    (val_main_v66 (F := Ideal) x0 x1) rfl rfl 7 (by rfl) (ix4 b h w (0 : Fin 1)) (fun a => match a with
      | ⟨0, _⟩ => fun _ => rfl
      | ⟨1, _⟩ => fun _ => rfl
      | ⟨2, _⟩ => fun _ => rfl
      | ⟨3, _⟩ => fun hne => absurd rfl hne) rfl).trans ?_
  exact plane7 x0 x1 b h w 0

theorem result_at8 (x0 x1 : FVec Ideal SImg .f32) (b : Fin 8) (h : Fin 256) (w : Fin 512) :
    val_main_v71 (F := Ideal) x0 x1 (ix4 b h w (⟨8, by omega⟩ : Fin 12)) = costEntry 8 x0 x1 b h w := by
  unfold val_main_v71
  refine (concatenate_apply_piece _ _ _ (ix4 b h w (⟨8, by omega⟩ : Fin 12)) 8 (by show (8 : ℕ) < 12; omega) S8x256x512x1
    (val_main_v67 (F := Ideal) x0 x1) rfl rfl 8 (by rfl) (ix4 b h w (0 : Fin 1)) (fun a => match a with
      | ⟨0, _⟩ => fun _ => rfl
      | ⟨1, _⟩ => fun _ => rfl
      | ⟨2, _⟩ => fun _ => rfl
      | ⟨3, _⟩ => fun hne => absurd rfl hne) rfl).trans ?_
  exact plane8 x0 x1 b h w 0

theorem result_at9 (x0 x1 : FVec Ideal SImg .f32) (b : Fin 8) (h : Fin 256) (w : Fin 512) :
    val_main_v71 (F := Ideal) x0 x1 (ix4 b h w (⟨9, by omega⟩ : Fin 12)) = costEntry 9 x0 x1 b h w := by
  unfold val_main_v71
  refine (concatenate_apply_piece _ _ _ (ix4 b h w (⟨9, by omega⟩ : Fin 12)) 9 (by show (9 : ℕ) < 12; omega) S8x256x512x1
    (val_main_v68 (F := Ideal) x0 x1) rfl rfl 9 (by rfl) (ix4 b h w (0 : Fin 1)) (fun a => match a with
      | ⟨0, _⟩ => fun _ => rfl
      | ⟨1, _⟩ => fun _ => rfl
      | ⟨2, _⟩ => fun _ => rfl
      | ⟨3, _⟩ => fun hne => absurd rfl hne) rfl).trans ?_
  exact plane9 x0 x1 b h w 0

theorem result_at10 (x0 x1 : FVec Ideal SImg .f32) (b : Fin 8) (h : Fin 256) (w : Fin 512) :
    val_main_v71 (F := Ideal) x0 x1 (ix4 b h w (⟨10, by omega⟩ : Fin 12)) = costEntry 10 x0 x1 b h w := by
  unfold val_main_v71
  refine (concatenate_apply_piece _ _ _ (ix4 b h w (⟨10, by omega⟩ : Fin 12)) 10 (by show (10 : ℕ) < 12; omega) S8x256x512x1
    (val_main_v69 (F := Ideal) x0 x1) rfl rfl 10 (by rfl) (ix4 b h w (0 : Fin 1)) (fun a => match a with
      | ⟨0, _⟩ => fun _ => rfl
      | ⟨1, _⟩ => fun _ => rfl
      | ⟨2, _⟩ => fun _ => rfl
      | ⟨3, _⟩ => fun hne => absurd rfl hne) rfl).trans ?_
  exact plane10 x0 x1 b h w 0

theorem result_at11 (x0 x1 : FVec Ideal SImg .f32) (b : Fin 8) (h : Fin 256) (w : Fin 512) :
    val_main_v71 (F := Ideal) x0 x1 (ix4 b h w (⟨11, by omega⟩ : Fin 12)) = costEntry 11 x0 x1 b h w := by
  unfold val_main_v71
  refine (concatenate_apply_piece _ _ _ (ix4 b h w (⟨11, by omega⟩ : Fin 12)) 11 (by show (11 : ℕ) < 12; omega) S8x256x512x1
    (val_main_v70 (F := Ideal) x0 x1) rfl rfl 11 (by rfl) (ix4 b h w (0 : Fin 1)) (fun a => match a with
      | ⟨0, _⟩ => fun _ => rfl
      | ⟨1, _⟩ => fun _ => rfl
      | ⟨2, _⟩ => fun _ => rfl
      | ⟨3, _⟩ => fun hne => absurd rfl hne) rfl).trans ?_
  exact plane11 x0 x1 b h w 0

/-- **The reference's result**, as a function of the two feature maps, is the cost volume. -/
theorem result_eq (x0 x1 : FVec Ideal SImg .f32) : val_main_v71 (F := Ideal) x0 x1 = costVolume x0 x1 := by
  funext i
  obtain ⟨b, h, w, d, rfl⟩ : ∃ (b : Fin 8) (h : Fin 256) (w : Fin 512) (d : Fin 12), i = ix4 b h w d :=
    ⟨i 0, i 1, i 2, i 3, eq_ix4 (n0 := 8) (n1 := 256) (n2 := 512) (n3 := 12) i⟩
  show _ = costEntry d.val x0 x1 b h w
  match d with
  | ⟨0, _⟩ => exact result_at0 x0 x1 b h w
  | ⟨1, _⟩ => exact result_at1 x0 x1 b h w
  | ⟨2, _⟩ => exact result_at2 x0 x1 b h w
  | ⟨3, _⟩ => exact result_at3 x0 x1 b h w
  | ⟨4, _⟩ => exact result_at4 x0 x1 b h w
  | ⟨5, _⟩ => exact result_at5 x0 x1 b h w
  | ⟨6, _⟩ => exact result_at6 x0 x1 b h w
  | ⟨7, _⟩ => exact result_at7 x0 x1 b h w
  | ⟨8, _⟩ => exact result_at8 x0 x1 b h w
  | ⟨9, _⟩ => exact result_at9 x0 x1 b h w
  | ⟨10, _⟩ => exact result_at10 x0 x1 b h w
  | ⟨11, _⟩ => exact result_at11 x0 x1 b h w

/-- **The reference's run**: every weakly fair execution of @main terminates with the result array at the cost
    volume of the two feature maps, and the feature maps as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71)
        = costVolume (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1.trans (val_main_v71_eq m c)).trans (result_eq _ _), (h c).2⟩)
    (Cert.ReferenceIdeal.Value.run (F := Ideal) m ρ)

end Cert.CostVolume.Ref

end
-- ==== Proof.lean ====
/-
  A stereo cost volume: kernel against reference, at the exact extended reals.

  Inputs: a left and a right feature map, each [8, 256, 512, 32] (batch, row, pixel, channel). Output:
  [8, 256, 512, 12]; entry (b, h, w, d) is Σ_c |left[b, h, w, c] − right[b, h, w − d, c]|, the right pixel read as
  zero when w < d.

  The reference computes each disparity's plane by padding d zero pixels in front of the right map's pixel axis,
  keeping the first 512 pixels, subtracting, taking absolute values and summing the channels; it joins the twelve
  planes along a new last axis. The kernel flattens (pixel, channel) into 16384 lanes, and for each band of 32
  rows rotates the right rows by 32·d lanes, zeroes the lanes below 32·d, subtracts, takes absolute values,
  regroups the lanes as 512 × 32 and sums the 32; it writes the plane [32, 512] as plane d of a block
  [1, 32, 12, 512] of an array [8, 256, 12, 512], which @main then transposes to [8, 256, 512, 12].

  The two agree entry by entry, with no law of arithmetic beyond the identity of the two summands: a rotation by
  a whole number of pixels moves channel c of pixel w − d to channel c of pixel w, the lanes that wrap around the
  end of a row are exactly the ones the mask zeroes, and both programs fill with the real zero (the float constant
  0.0 in the kernel, the integer 0 converted to a float in the reference). Each sum runs over the same 32 terms
  in the same order, so nothing is asked of the inputs: the precondition is not used.

  The modules: Spec (the cost volume as one function), ShiftedPlane (one plane of one block of rows, from the
  vector operations), Block (the twelve stores tile the output block), Array (the 64 blocks tile the output
  array), KernelRun (the flattening before the region and the transpose after it), RefPlane and Reference (the
  host program's planes and their join). The frames are the generated ones; the kernel is its own idealization
  (no rewrite was applied), so the idealization claim is trivial.
-/
import proofs.«142062_j22531398435045_2_alg».proof.Defs
import proofs.«142062_j22531398435045_2_alg».proof.Proof.Gen.Kernel
import proofs.«142062_j22531398435045_2_alg».proof.Proof.Gen.Kernel.Skeleton
import proofs.«142062_j22531398435045_2_alg».proof.Proof.Gen.Kernel.Launch
import proofs.«142062_j22531398435045_2_alg».proof.Proof.Gen.Kernel.Points
import proofs.«142062_j22531398435045_2_alg».proof.Proof.Gen.Kernel.Frame
import proofs.«142062_j22531398435045_2_alg».proof.Proof.Gen.KernelIdeal
import proofs.«142062_j22531398435045_2_alg».proof.Proof.Gen.KernelIdeal.Skeleton
import proofs.«142062_j22531398435045_2_alg».proof.Proof.Gen.KernelIdeal.Launch
import proofs.«142062_j22531398435045_2_alg».proof.Proof.Gen.KernelIdeal.Points
import proofs.«142062_j22531398435045_2_alg».proof.Proof.Gen.KernelIdeal.Frame
import proofs.«142062_j22531398435045_2_alg».proof.Proof.Gen.ReferenceIdeal
import proofs.«142062_j22531398435045_2_alg».proof.Proof.Gen.ReferenceIdeal.Run
import proofs.«142062_j22531398435045_2_alg».proof.Proof.Gen.ReferenceIdeal.Read
import proofs.«142062_j22531398435045_2_alg».proof.Proof.Gen.Pre_finite_inputs
import proofs.«142062_j22531398435045_2_alg».proof.Proof.KernelRun
import proofs.«142062_j22531398435045_2_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and keeps its arguments (the generated frame). -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and keeps its arguments: its run, with the result forgotten. -/
theorem frame_referenceIdeal : Cert.frame_ReferenceIdeal := fun m ρ _ =>
  (θ_run Cert.ReferenceIdeal.defs _ _).mono (fun _ h c => (h c).2)
    (Cert.ReferenceIdeal.Value.run (F := Ideal) m ρ)

/-- No operation of the kernel was rewritten for the extended reals. -/
theorem preserves : Cert.preserves_Kernel_KernelIdeal := trivial

/-- From memories that agree on the two feature maps, both programs end with their result at the cost volume of
    those maps. -/
theorem algebraic : Cert.algebraic_KernelIdeal_ReferenceIdeal := by
  intro m ρ m' ρ' _ hagree
  refine ⟨fun c => Cert.CostVolume.costVolume
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.CostVolume.kernel_run m ρ, ?_⟩
  refine (θ_run Cert.ReferenceIdeal.defs _ _).mono (fun _ h c => ⟨(h c).1.trans ?_, (h c).2⟩)
    (Cert.CostVolume.Ref.reference_run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
